-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x200x256 : Shape := ⟨3, ![512, 200, 256]⟩
abbrev S512x200x200 : Shape := ⟨3, ![512, 200, 200]⟩
abbrev S256 : Shape := ⟨1, ![256]⟩
abbrev S_ : Shape := ⟨0, ![]⟩

class Facts : Prop where
  bcast_S_S512x200x256 : S_.BroadcastsInDim S512x200x256 (![] : Fin 0 → Fin S512x200x256.rank)
  reducesTo_S512x200x256_S_d0_1_2 : S512x200x256.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S512x200x256 .f32) (main_arg1 : IVec S512x200x200 32) (main_arg2 : FVec F S256 .f32) (main_arg3 : FVec F S256 .f32) (main_arg4 : FVec F S256 .f32) (main_arg5 : FVec F S256 .f32) : IVec S_ 1 :=
  let main_v0 : FVec F S512x200x256 .f32 := Host.absf main_arg0
  let main_cst : FVec F S_ .f32 := constant S_ .f32 0x7F800000#32
  let main_v1 : FVec F S512x200x256 .f32 := broadcastInDim S512x200x256 ![] bcast_S_S512x200x256 main_cst
  let main_v2 : IVec S512x200x256 1 := cmpf .olt main_v0 main_v1
  let main_c : IVec S_ 1 := constantI S_ 1 1#1
  let main_v3 : IVec S_ 1 := (fun x v => Host.reduce IntOp.andi x v reducesTo_S512x200x256_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S512x200x256 : Shape := ⟨3, ![512, 200, 256]⟩
abbrev S512x200x200 : Shape := ⟨3, ![512, 200, 200]⟩
abbrev S256 : Shape := ⟨1, ![256]⟩
abbrev S1x256 : Shape := ⟨2, ![1, 256]⟩
abbrev S4x256 : Shape := ⟨2, ![4, 256]⟩
abbrev S8x200x256 : Shape := ⟨3, ![8, 200, 256]⟩
abbrev S8x200x200 : Shape := ⟨3, ![8, 200, 200]⟩
abbrev S1x1x256 : Shape := ⟨3, ![1, 1, 256]⟩
abbrev S8x200 : Shape := ⟨2, ![8, 200]⟩
abbrev S8x200x1 : Shape := ⟨3, ![8, 200, 1]⟩

abbrev nBuf : Space → Nat
  | .hbm => 12
  | .vmem => 7
  | .smem => 0
  | _ => 0

abbrev bufTy : (tb : Table) → Fin (tcTables nBuf tb) → BufTy
  | .hbm, ⟨0, _⟩ => ⟨S512x200x256, .f32⟩
  | .hbm, ⟨1, _⟩ => ⟨S512x200x200, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S4x256, .f32⟩
  | .hbm, ⟨11, _⟩ => ⟨S512x200x256, .f32⟩
  | .local _ .vmem, ⟨0, _⟩ => ⟨S8x200x256, .f32⟩
  | .local _ .vmem, ⟨1, _⟩ => ⟨S8x200x256, .f32⟩
  | .local _ .vmem, ⟨2, _⟩ => ⟨S8x200x200, .i32⟩
  | .local _ .vmem, ⟨3, _⟩ => ⟨S8x200x200, .i32⟩
  | .local _ .vmem, ⟨4, _⟩ => ⟨S4x256, .f32⟩
  | .local _ .vmem, ⟨5, _⟩ => ⟨S8x200x256, .f32⟩
  | .local _ .vmem, ⟨6, _⟩ => ⟨S8x200x256, .f32⟩
  | _, _ => ⟨S512x200x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x200x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256_S1x256_1 : S256.BroadcastsInDim S1x256 (![1] : Fin 1 → Fin S1x256.rank)
  concatenates_S1x256_S1x256_S1x256_S1x256_S4x256_d0 : Shape.Concatenates [S1x256, S1x256, S1x256, S1x256] S4x256 0
  inb_S8x200x256_S8x200x256_0_0_0 : ∀ a, (![0, 0, 0] : Fin 3 → Nat) a + S8x200x256.size a ≤ S8x200x256.size a
  h_S8x200x256 : 0 < S8x200x256.numel
  inb_S8x200x200_S8x200x200_0_0_0 : ∀ a, (![0, 0, 0] : Fin 3 → Nat) a + S8x200x200.size a ≤ S8x200x200.size a
  h_S8x200x200 : 0 < S8x200x200.numel
  bitsLt_bf16_f32 : FTy.bits .bf16 < FTy.bits .f32
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x1x256 : S256.ShapeCasts S1x1x256
  broadcasts_S1x1x256_S8x200x256 : S1x1x256.Broadcasts S8x200x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  reduces_S8x200x200_S8x200 : S8x200x200.Reduces [2] S8x200
  shapeCasts_S8x200_S8x200x1 : S8x200.ShapeCasts S8x200x1
  broadcasts_S8x200x1_S8x200x200 : S8x200x1.Broadcasts S8x200x200
  dot_S8x200x256_S8x200x256_S8x200x200_2_2_1_1_0_0_wf : DotDims.WF S8x200x256 S8x200x256 S8x200x200 [2] [2] [1] [1] [0] [0]
  dot_S8x200x200_S8x200x256_S8x200x256_2_1_1_2_0_0_wf : DotDims.WF S8x200x200 S8x200x256 S8x200x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x256.size a ≤ S512x200x256.size a
  hwx0_0 : ∀ i : grid0.Coords, EltTy.bits .f32 = 32 ∨ (Rect.block (s := S512x200x256) S8x200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x200x200.size a ≤ S512x200x200.size a
  hwx0_1 : ∀ i : grid0.Coords, EltTy.bits .i32 = 32 ∨ (Rect.block (s := S512x200x200) S8x200x200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x200x256.size a ≤ S512x200x256.size a
  hwx0_3 : ∀ i : grid0.Coords, EltTy.bits .f32 = 32 ∨ (Rect.block (s := S512x200x256) S8x200x256.size (cc0_transform_3 i) (hinb0_3 i)).WholeWords (EltTy.packing .f32)

variable [Facts₀]

def dot_S8x200x256_S8x200x256_S8x200x200_2_2_1_1_0_0 : DotDims S8x200x256 S8x200x256 S8x200x200 where
  lhsContracting := [2]
  rhsContracting := [2]
  lhsNonContracting := [1]
  rhsNonContracting := [1]
  lhsBatch := [0]
  rhsBatch := [0]
  wf := dot_S8x200x256_S8x200x256_S8x200x200_2_2_1_1_0_0_wf
def dot_S8x200x200_S8x200x256_S8x200x256_2_1_1_2_0_0 : DotDims S8x200x200 S8x200x256 S8x200x256 where
  lhsContracting := [2]
  rhsContracting := [1]
  lhsNonContracting := [1]
  rhsNonContracting := [2]
  lhsBatch := [0]
  rhsBatch := [0]
  wf := dot_S8x200x200_S8x200x256_S8x200x256_2_1_1_2_0_0_wf

abbrev win0_0 : Pipeline.Window sig grid0 :=
  Pipeline.Window.ofSpec (Memref.whole main_arg0) S8x200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x200x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x200x256 : Shape := ⟨3, ![512, 200, 256]⟩
abbrev S512x200x200 : Shape := ⟨3, ![512, 200, 200]⟩
abbrev S256 : Shape := ⟨1, ![256]⟩
abbrev S1x1x256 : Shape := ⟨3, ![1, 1, 256]⟩
abbrev S_ : Shape := ⟨0, ![]⟩
abbrev S512x200 : Shape := ⟨2, ![512, 200]⟩
abbrev S512x200x1 : Shape := ⟨3, ![512, 200, 1]⟩

abbrev nBuf : Space → Nat
  | .hbm => 88
  | .vmem => 0
  | .smem => 0
  | _ => 0

abbrev bufTy : (tb : Table) → Fin (tcTables nBuf tb) → BufTy
  | .hbm, ⟨0, _⟩ => ⟨S512x200x256, .f32⟩
  | .hbm, ⟨1, _⟩ => ⟨S512x200x200, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x1x256, .f32⟩
  | .hbm, ⟨7, _⟩ => ⟨S512x200x256, .f32⟩
  | .hbm, ⟨8, _⟩ => ⟨S512x200x256, .f32⟩
  | .hbm, ⟨9, _⟩ => ⟨S512x200x200, .f32⟩
  | .hbm, ⟨10, _⟩ => ⟨S_, .f32⟩
  | .hbm, ⟨11, _⟩ => ⟨S_, .f32⟩
  | .hbm, ⟨12, _⟩ => ⟨S512x200x200, .f32⟩
  | .hbm, ⟨13, _⟩ => ⟨S512x200x200, .i1⟩
  | .hbm, ⟨14, _⟩ => ⟨S_, .f32⟩
  | .hbm, ⟨15, _⟩ => ⟨S512x200x200, .f32⟩
  | .hbm, ⟨16, _⟩ => ⟨S512x200x200, .f32⟩
  | .hbm, ⟨17, _⟩ => ⟨S512x200x200, .f32⟩
  | .hbm, ⟨18, _⟩ => ⟨S1x1x256, .f32⟩
  | .hbm, ⟨19, _⟩ => ⟨S512x200x256, .f32⟩
  | .hbm, ⟨20, _⟩ => ⟨S512x200x256, .f32⟩
  | .hbm, ⟨21, _⟩ => ⟨S512x200x200, .f32⟩
  | .hbm, ⟨22, _⟩ => ⟨S_, .f32⟩
  | .hbm, ⟨23, _⟩ => ⟨S_, .f32⟩
  | .hbm, ⟨24, _⟩ => ⟨S512x200x200, .f32⟩
  | .hbm, ⟨25, _⟩ => ⟨S512x200x200, .i1⟩
  | .hbm, ⟨26, _⟩ => ⟨S_, .f32⟩
  | .hbm, ⟨27, _⟩ => ⟨S512x200x200, .f32⟩
  | .hbm, ⟨28, _⟩ => ⟨S512x200x200, .f32⟩
  | .hbm, ⟨29, _⟩ => ⟨S512x200x200, .f32⟩
  | .hbm, ⟨30, _⟩ => ⟨S1x1x256, .f32⟩
  | .hbm, ⟨31, _⟩ => ⟨S512x200x256, .f32⟩
  | .hbm, ⟨32, _⟩ => ⟨S512x200x256, .f32⟩
  | .hbm, ⟨33, _⟩ => ⟨S512x200x200, .f32⟩
  | .hbm, ⟨34, _⟩ => ⟨S_, .f32⟩
  | .hbm, ⟨35, _⟩ => ⟨S_, .f32⟩
  | .hbm, ⟨36, _⟩ => ⟨S512x200x200, .f32⟩
  | .hbm, ⟨37, _⟩ => ⟨S512x200x200, .i1⟩
  | .hbm, ⟨38, _⟩ => ⟨S_, .f32⟩
  | .hbm, ⟨39, _⟩ => ⟨S512x200x200, .f32⟩
  | .hbm, ⟨40, _⟩ => ⟨S512x200x200, .f32⟩
  | .hbm, ⟨41, _⟩ => ⟨S512x200x200, .f32⟩
  | .hbm, ⟨42, _⟩ => ⟨S1x1x256, .f32⟩
  | .hbm, ⟨43, _⟩ => ⟨S512x200x256, .f32⟩
  | .hbm, ⟨44, _⟩ => ⟨S512x200x256, .f32⟩
  | .hbm, ⟨45, _⟩ => ⟨S512x200x200, .f32⟩
  | .hbm, ⟨46, _⟩ => ⟨S_, .f32⟩
  | .hbm, ⟨47, _⟩ => ⟨S_, .f32⟩
  | .hbm, ⟨48, _⟩ => ⟨S512x200x200, .f32⟩
  | .hbm, ⟨49, _⟩ => ⟨S512x200x200, .i1⟩
  | .hbm, ⟨50, _⟩ => ⟨S_, .f32⟩
  | .hbm, ⟨51, _⟩ => ⟨S512x200x200, .f32⟩
  | .hbm, ⟨52, _⟩ => ⟨S512x200x200, .f32⟩
  | .hbm, ⟨53, _⟩ => ⟨S512x200x200, .f32⟩
  | .hbm, ⟨54, _⟩ => ⟨S_, .i32⟩
  | .hbm, ⟨55, _⟩ => ⟨S512x200x200, .i32⟩
  | .hbm, ⟨56, _⟩ => ⟨S512x200x200, .i1⟩
  | .hbm, ⟨57, _⟩ => ⟨S_, .f32⟩
  | .hbm, ⟨58, _⟩ => ⟨S_, .f32⟩
  | .hbm, ⟨59, _⟩ => ⟨S512x200x200, .f32⟩
  | .hbm, ⟨60, _⟩ => ⟨S512x200x200, .f32⟩
  | .hbm, ⟨61, _⟩ => ⟨S_, .i32⟩
  | .hbm, ⟨62, _⟩ => ⟨S512x200x200, .i32⟩
  | .hbm, ⟨63, _⟩ => ⟨S512x200x200, .i1⟩
  | .hbm, ⟨64, _⟩ => ⟨S512x200x200, .f32⟩
  | .hbm, ⟨65, _⟩ => ⟨S_, .i32⟩
  | .hbm, ⟨66, _⟩ => ⟨S512x200x200, .i32⟩
  | .hbm, ⟨67, _⟩ => ⟨S512x200x200, .i1⟩
  | .hbm, ⟨68, _⟩ => ⟨S512x200x200, .f32⟩
  | .hbm, ⟨69, _⟩ => ⟨S_, .i32⟩
  | .hbm, ⟨70, _⟩ => ⟨S512x200x200, .i32⟩
  | .hbm, ⟨71, _⟩ => ⟨S512x200x200, .i1⟩
  | .hbm, ⟨72, _⟩ => ⟨S512x200x200, .f32⟩
  | .hbm, ⟨73, _⟩ => ⟨S_, .f32⟩
  | .hbm, ⟨74, _⟩ => ⟨S512x200, .f32⟩
  | .hbm, ⟨75, _⟩ => ⟨S_, .f32⟩
  | .hbm, ⟨76, _⟩ => ⟨S512x200, .f32⟩
  | .hbm, ⟨77, _⟩ => ⟨S512x200, .f32⟩
  | .hbm, ⟨78, _⟩ => ⟨S512x200x1, .f32⟩
  | .hbm, ⟨79, _⟩ => ⟨S512x200x200, .f32⟩
  | .hbm, ⟨80, _⟩ => ⟨S512x200x200, .f32⟩
  | .hbm, ⟨81, _⟩ => ⟨S512x200x200, .f32⟩
  | .hbm, ⟨82, _⟩ => ⟨S_, .f32⟩
  | .hbm, ⟨83, _⟩ => ⟨S512x200, .f32⟩
  | .hbm, ⟨84, _⟩ => ⟨S512x200x1, .f32⟩
  | .hbm, ⟨85, _⟩ => ⟨S512x200x200, .f32⟩
  | .hbm, ⟨86, _⟩ => ⟨S512x200x200, .f32⟩
  | .hbm, ⟨87, _⟩ => ⟨S512x200x256, .f32⟩
  | _, _ => ⟨S512x200x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_call2_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_call3_cst : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v19 : Ref sig .tc := ⟨.hbm, 53, rfl⟩
abbrev main_c : Ref sig .tc := ⟨.hbm, 54, rfl⟩
abbrev main_v20 : Ref sig .tc := ⟨.hbm, 55, rfl⟩
abbrev main_v21 : Ref sig .tc := ⟨.hbm, 56, rfl⟩
abbrev main_cst_3 : Ref sig .tc := ⟨.hbm, 57, rfl⟩
abbrev main_call4_v0 : Ref sig .tc := ⟨.hbm, 58, rfl⟩
abbrev main_call4_v1 : Ref sig .tc := ⟨.hbm, 59, rfl⟩
abbrev main_v22 : Ref sig .tc := ⟨.hbm, 60, rfl⟩
abbrev main_c_4 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_c_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_9 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S512x200x256_0_1_2 : S1x1x256.BroadcastsInDim S512x200x256 (![0, 1, 2] : Fin 3 → Fin S512x200x256.rank)
  bcast_S_S512x200x200 : S_.BroadcastsInDim S512x200x200 (![] : Fin 0 → Fin S512x200x200.rank)
  reducesTo_S512x200x200_S512x200_d2 : S512x200x200.ReducesTo [2] S512x200
  h_S_ : 0 < S_.numel
  bcast_S_S512x200 : S_.BroadcastsInDim S512x200 (![] : Fin 0 → Fin S512x200.rank)
  bcast_S512x200_S512x200x1_0_1 : S512x200.BroadcastsInDim S512x200x1 (![0, 1] : Fin 2 → Fin S512x200x1.rank)
  bcast_S512x200x1_S512x200x200_0_1_2 : S512x200x1.BroadcastsInDim S512x200x200 (![0, 1, 2] : Fin 3 → Fin S512x200x200.rank)
  dot_S512x200x256_S512x200x256_S512x200x200_2_2_1_1_0_0_wf : DotDims.WF S512x200x256 S512x200x256 S512x200x200 [2] [2] [1] [1] [0] [0]
  dot_S512x200x200_S512x200x256_S512x200x256_2_1_1_2_0_0_wf : DotDims.WF S512x200x200 S512x200x256 S512x200x256 [2] [1] [1] [2] [0] [0]

variable [Facts₀]

def dot_S512x200x256_S512x200x256_S512x200x200_2_2_1_1_0_0 : DotDims S512x200x256 S512x200x256 S512x200x200 where
  lhsContracting := [2]
  rhsContracting := [2]
  lhsNonContracting := [1]
  rhsNonContracting := [1]
  lhsBatch := [0]
  rhsBatch := [0]
  wf := dot_S512x200x256_S512x200x256_S512x200x200_2_2_1_1_0_0_wf
def dot_S512x200x200_S512x200x256_S512x200x256_2_1_1_2_0_0 : DotDims S512x200x200 S512x200x256 S512x200x256 where
  lhsContracting := [2]
  rhsContracting := [1]
  lhsNonContracting := [1]
  rhsNonContracting := [2]
  lhsBatch := [0]
  rhsBatch := [0]
  wf := dot_S512x200x200_S512x200x256_S512x200x256_2_1_1_2_0_0_wf

class Facts : Prop extends Facts₀ where

variable [Facts]
-- ==== Proof.KernelRun.lean ====
/-
  The run of the kernel program: its host prefix (four row broadcasts and their stacking into a [4, 256] array), then the
  one region over the 64 batch blocks. Per block the body reads its three input blocks whole, computes, and overwrites its
  output block whole; so after the run every output block holds the body's value of the input blocks at that point, and
  the argument arrays are as they were launched.
-/
import proofs.«158989_j84241488544065_1_alg».proof.Proof.Gen.Kernel.Launch
import proofs.«158989_j84241488544065_1_alg».proof.Proof.Gen.Kernel.Skeleton
import proofs.«158989_j84241488544065_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core c's buffers when the region is entered: the launch memory after the five host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

theorem V_main_arg0 (c : Dev nD) : V m c main_arg0 = m ((c : Thread nD τ).loc main_arg0) :=
  V_arg m c main_arg0 (by decide) (by decide) (by decide) (by decide) (by decide)
theorem V_main_arg1 (c : Dev nD) : V m c main_arg1 = m ((c : Thread nD τ).loc main_arg1) :=
  V_arg m c main_arg1 (by decide) (by decide) (by decide) (by decide) (by decide)
theorem V_main_arg2 (c : Dev nD) : V m c main_arg2 = m ((c : Thread nD τ).loc main_arg2) :=
  V_arg m c main_arg2 (by decide) (by decide) (by decide) (by decide) (by decide)
theorem V_main_arg3 (c : Dev nD) : V m c main_arg3 = m ((c : Thread nD τ).loc main_arg3) :=
  V_arg m c main_arg3 (by decide) (by decide) (by decide) (by decide) (by decide)
theorem V_main_arg4 (c : Dev nD) : V m c main_arg4 = m ((c : Thread nD τ).loc main_arg4) :=
  V_arg m c main_arg4 (by decide) (by decide) (by decide) (by decide) (by decide)
theorem V_main_arg5 (c : Dev nD) : V m c main_arg5 = m ((c : Thread nD τ).loc main_arg5) :=
  V_arg m c main_arg5 (by decide) (by decide) (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the stacked weights
    are fetched once, at the first point, and their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run that ends with every array of the region at what the proof data says and every other buffer as the
    region found it: the six argument arrays end as launched. The two staged inputs are read off the proof data (an input
    array is never written back), the four weight vectors bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

/-- The whole [8, 200, 256] block, the whole [8, 200, 200] block, and the four rows of the stacked weights. -/
abbrev rH : Rect S8x200x256 := Rect.unit (s := S8x200x256) ![0, 0, 0] S8x200x256.size inb_S8x200x256_S8x200x256_0_0_0
abbrev rL : Rect S8x200x200 := Rect.unit (s := S8x200x200) ![0, 0, 0] S8x200x200.size inb_S8x200x200_S8x200x200_0_0_0
abbrev rA0 : Rect S4x256 := Rect.unit (s := S4x256) ![0, 0] S1x256.size inb_S4x256_S1x256_0_0
abbrev rA1 : Rect S4x256 := Rect.unit (s := S4x256) ![1, 0] S1x256.size inb_S4x256_S1x256_1_0
abbrev rA2 : Rect S4x256 := Rect.unit (s := S4x256) ![2, 0] S1x256.size inb_S4x256_S1x256_2_0
abbrev rA3 : Rect S4x256 := Rect.unit (s := S4x256) ![3, 0] S1x256.size inb_S4x256_S1x256_3_0

/-- The value the body stores, of its three input blocks. -/
def stored (x0 : Vec F S8x200x256 .f32) (x1 : Vec F S8x200x200 .i32) (x2 : Vec F S4x256 .f32) : Vec F S8x200x256 .f32 :=
  k0_pay1 (View.ld x0 rH) (View.ld x1 rL) (k0_pay2 (View.ld x0 rH))
    (k0_pay3 (View.ld x0 rH) (View.ld x1 rL) (View.ld x2 rA0) (View.ld x2 rA1)) (k0_pay4 (View.ld x2 rA2)) (View.ld x2 rA3)

/-- What the body leaves in the output block: its one store, which covers the block. -/
def out0_3 (x0 : Vec F S8x200x256 .f32) (x1 : Vec F S8x200x200 .i32) (x2 : Vec F S4x256 .f32) : Vec F S8x200x256 .f32 :=
  View.canon [⟨rH, stored x0 x1 x2⟩]

theorem cover0_3 (p0 : Vec F S8x200x256 .f32) (y : S8x200x256.Idx) :
    ∃ pc ∈ ([⟨rH, p0⟩] : List (View.Piece (Elt F) S8x200x256 .f32)), y ∈ pc.1.set :=
  View.cover_of_tiled [⟨rH, p0⟩] S8x200x256.size (by rfl) y

/-! ## The body's triple -/

set_option maxHeartbeats 1000000 in
/-- The body on whole staging buffers, the three inputs at known contents and the output at anything, returns the inputs
    as they were and the output at the stored value. -/
theorem sound_kernel (c : Dev nD) (E : Set ℕ) (i : grid0.Coords) (arg1 : Memref sig .tc .vmem S8x200x256 .f32) (harg1 : arg1.IsWhole)
    (arg2 : Memref sig .tc .vmem S8x200x200 .i32) (harg2 : arg2.IsWhole) (arg3 : Memref sig .tc .vmem S4x256 .f32) (harg3 : arg3.IsWhole)
    (arg4 : Memref sig .tc .vmem S8x200x256 .f32) (harg4 : arg4.IsWhole)
    (x0 : Vec F S8x200x256 .f32) (x1 : Vec F S8x200x200 .i32) (x2 : Vec F S4x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gat_kernel i arg1 harg1 arg2 harg2 arg3 harg3 arg4 harg4) K := by
  simp only [cc0__gat_kernel_eq_skeleton]; unfold cc0__gat_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The region's proof data -/

/-- After the body at point t each input buffer still holds its block and the output buffer holds the stored value of the
    three input blocks at t. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and then every array of the region holds what the proof data
    says and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KernelIdealRun.lean ====
/-
  The run of the kernel program: its host prefix (four row broadcasts and their stacking into a [4, 256] array), then the
  one region over the 64 batch blocks. Per block the body reads its three input blocks whole, computes, and overwrites its
  output block whole; so after the run every output block holds the body's value of the input blocks at that point, and
  the argument arrays are as they were launched.
-/
import proofs.«158989_j84241488544065_1_alg».proof.Proof.Gen.KernelIdeal.Launch
import proofs.«158989_j84241488544065_1_alg».proof.Proof.Gen.KernelIdeal.Skeleton
import proofs.«158989_j84241488544065_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core c's buffers when the region is entered: the launch memory after the five host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

theorem V_main_arg0 (c : Dev nD) : V m c main_arg0 = m ((c : Thread nD τ).loc main_arg0) :=
  V_arg m c main_arg0 (by decide) (by decide) (by decide) (by decide) (by decide)
theorem V_main_arg1 (c : Dev nD) : V m c main_arg1 = m ((c : Thread nD τ).loc main_arg1) :=
  V_arg m c main_arg1 (by decide) (by decide) (by decide) (by decide) (by decide)
theorem V_main_arg2 (c : Dev nD) : V m c main_arg2 = m ((c : Thread nD τ).loc main_arg2) :=
  V_arg m c main_arg2 (by decide) (by decide) (by decide) (by decide) (by decide)
theorem V_main_arg3 (c : Dev nD) : V m c main_arg3 = m ((c : Thread nD τ).loc main_arg3) :=
  V_arg m c main_arg3 (by decide) (by decide) (by decide) (by decide) (by decide)
theorem V_main_arg4 (c : Dev nD) : V m c main_arg4 = m ((c : Thread nD τ).loc main_arg4) :=
  V_arg m c main_arg4 (by decide) (by decide) (by decide) (by decide) (by decide)
theorem V_main_arg5 (c : Dev nD) : V m c main_arg5 = m ((c : Thread nD τ).loc main_arg5) :=
  V_arg m c main_arg5 (by decide) (by decide) (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the stacked weights
    are fetched once, at the first point, and their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run that ends with every array of the region at what the proof data says and every other buffer as the
    region found it: the six argument arrays end as launched. The two staged inputs are read off the proof data (an input
    array is never written back), the four weight vectors bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

/-- The whole [8, 200, 256] block, the whole [8, 200, 200] block, and the four rows of the stacked weights. -/
abbrev rH : Rect S8x200x256 := Rect.unit (s := S8x200x256) ![0, 0, 0] S8x200x256.size inb_S8x200x256_S8x200x256_0_0_0
abbrev rL : Rect S8x200x200 := Rect.unit (s := S8x200x200) ![0, 0, 0] S8x200x200.size inb_S8x200x200_S8x200x200_0_0_0
abbrev rA0 : Rect S4x256 := Rect.unit (s := S4x256) ![0, 0] S1x256.size inb_S4x256_S1x256_0_0
abbrev rA1 : Rect S4x256 := Rect.unit (s := S4x256) ![1, 0] S1x256.size inb_S4x256_S1x256_1_0
abbrev rA2 : Rect S4x256 := Rect.unit (s := S4x256) ![2, 0] S1x256.size inb_S4x256_S1x256_2_0
abbrev rA3 : Rect S4x256 := Rect.unit (s := S4x256) ![3, 0] S1x256.size inb_S4x256_S1x256_3_0

/-- The value the body stores, of its three input blocks. -/
def stored (x0 : Vec F S8x200x256 .f32) (x1 : Vec F S8x200x200 .i32) (x2 : Vec F S4x256 .f32) : Vec F S8x200x256 .f32 :=
  k0_pay1 (View.ld x0 rH) (View.ld x1 rL) (k0_pay2 (View.ld x0 rH))
    (k0_pay3 (View.ld x0 rH) (View.ld x1 rL) (View.ld x2 rA0) (View.ld x2 rA1)) (k0_pay4 (View.ld x2 rA2)) (View.ld x2 rA3)

/-- What the body leaves in the output block: its one store, which covers the block. -/
def out0_3 (x0 : Vec F S8x200x256 .f32) (x1 : Vec F S8x200x200 .i32) (x2 : Vec F S4x256 .f32) : Vec F S8x200x256 .f32 :=
  View.canon [⟨rH, stored x0 x1 x2⟩]

theorem cover0_3 (p0 : Vec F S8x200x256 .f32) (y : S8x200x256.Idx) :
    ∃ pc ∈ ([⟨rH, p0⟩] : List (View.Piece (Elt F) S8x200x256 .f32)), y ∈ pc.1.set :=
  View.cover_of_tiled [⟨rH, p0⟩] S8x200x256.size (by rfl) y

/-! ## The body's triple -/

set_option maxHeartbeats 1000000 in
/-- The body on whole staging buffers, the three inputs at known contents and the output at anything, returns the inputs
    as they were and the output at the stored value. -/
theorem sound_kernel (c : Dev nD) (E : Set ℕ) (i : grid0.Coords) (arg1 : Memref sig .tc .vmem S8x200x256 .f32) (harg1 : arg1.IsWhole)
    (arg2 : Memref sig .tc .vmem S8x200x200 .i32) (harg2 : arg2.IsWhole) (arg3 : Memref sig .tc .vmem S4x256 .f32) (harg3 : arg3.IsWhole)
    (arg4 : Memref sig .tc .vmem S8x200x256 .f32) (harg4 : arg4.IsWhole)
    (x0 : Vec F S8x200x256 .f32) (x1 : Vec F S8x200x200 .i32) (x2 : Vec F S4x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gat_kernel i arg1 harg1 arg2 harg2 arg3 harg3 arg4 harg4) K := by
  simp only [cc0__gat_kernel_eq_skeleton]; unfold cc0__gat_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The region's proof data -/

/-- After the body at point t each input buffer still holds its block and the output buffer holds the stored value of the
    three input blocks at t. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and then every array of the region holds what the proof data
    says and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«158989_j84241488544065_1_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.Spec.lean ====
/-
  The function both programs compute, entry by entry, on the extended reals.

  For a batch element b and a node i, every node j gets four scores, one per weight vector a_k:
  the sum over the feature coordinate of (h[b,i,·] · a_k) · h[b,j,·], passed through the leaky unit
  (x where x ≥ 0, slope · x elsewhere). The integer label adj[b,i,j] picks which of the four is kept
  (label k+1 keeps score k; any other label keeps the large negative fill). The kept values of row
  (b,i) are turned into weights by a softmax over j — subtract the row's maximum, exponentiate, divide by
  the row's sum — and the result at (b,i,d) is the weighted sum over j of h[b,j,d].
-/
import Idealize.ShloMosaic.PureOps.Ideal.Laws
import Idealize.ShloMosaic.Lib.ValueIdx
import proofs.«158989_j84241488544065_1_alg».proof.Proof.LibSoftmaxRows

noncomputable section

open scoped BigOperators

namespace Cert.Gat

open Idealize.ShloMosaic Idealize.ShloMosaic.ValueIdx Idealize.ShloMosaic.SoftmaxRows

/-- The score of the pair (i, j) of batch element b under the weight vector a, for B batch elements. -/
def score {B : Nat} (h : (⟨3, ![B, 200, 256]⟩ : Shape).Idx → EReal) (a : Fin 256 → EReal)
    (b : Fin B) (i j : Fin 200) : EReal :=
  ∑ d : Fin 256, (h (ix3 b i d) * a d) * h (ix3 b j d)

/-- The leaky unit with slope 0.2 (the f32 nearest to it), the comparison against the f32 zero. -/
def leaky (x : EReal) : EReal :=
  Scalar.select (Ideal.cmp .oge x (Ideal.ofBits .f32 0x00000000#32)) x (Ideal.ofBits .f32 0x3E4CCCCD#32 * x)

/-- The label's choice among the four activated scores, the fill −9·10¹⁵ for any other label. The
    later labels are tested first, as both programs nest their selections. -/
def pick (l : BitVec 32) (e0 e1 e2 e3 : EReal) : EReal :=
  Scalar.select (IntOp.cmpi .eq l 4#32) e3
    (Scalar.select (IntOp.cmpi .eq l 3#32) e2
      (Scalar.select (IntOp.cmpi .eq l 2#32) e1
        (Scalar.select (IntOp.cmpi .eq l 1#32) e0 (Ideal.ofBits .f32 0xD9FFCB9E#32))))

/-- The kept value at (b, i, j), before the softmax. -/
def logit {B : Nat} (h : (⟨3, ![B, 200, 256]⟩ : Shape).Idx → EReal) (adj : (⟨3, ![B, 200, 200]⟩ : Shape).Idx → BitVec 32)
    (a0 a1 a2 a3 : Fin 256 → EReal) (b : Fin B) (i j : Fin 200) : EReal :=
  pick (adj (ix3 b i j)) (leaky (score h a0 b i j)) (leaky (score h a1 b i j)) (leaky (score h a2 b i j))
    (leaky (score h a3 b i j))

/-- The result at (b, i, d): the softmax weights of row (b, i), the maximum folded from −∞, against
    column d of h[b]. -/
def outAt {B : Nat} (h : (⟨3, ![B, 200, 256]⟩ : Shape).Idx → EReal) (adj : (⟨3, ![B, 200, 200]⟩ : Shape).Idx → BitVec 32)
    (a0 a1 a2 a3 : Fin 256 → EReal) (b : Fin B) (i : Fin 200) (d : Fin 256) : EReal :=
  ∑ j : Fin 200, softmaxAt (fun c => logit h adj a0 a1 a2 a3 b i c) (Ideal.ofBits .f32 0xFF800000#32) j * h (ix3 b j d)

end Cert.Gat

end
-- ==== Proof.LibSoftmaxLanes.lean ====
/-
  A softmax along the LANES (the last axis) of a rank-3 vector, read AT AN INDEX at the ideal values, for a kernel that
  spells it the numerically careful way with both reductions kept (`keepdims`) and broadcast back along the lanes:

  * `laneMax3_apply`: a `multi_reduction <maximumf>` over the last axis of a rank-3 vector, at (a, b), is the fold of
    `max` from the accumulator's value over the lane coordinate;
  * `softmaxLanes3_apply`: the whole chain (maximum, cast [a, b] → [a, b, 1], broadcast to [a, b, c], subtract,
    exponentiate, sum, cast, broadcast, divide) at (a, b, j) is `SoftmaxRows.softmaxAt` of the lane row at (a, b).

  Nothing here needs the entries to be finite.
-/
import Idealize.ShloMosaic.PureOps.Ideal.Laws
import Idealize.ShloMosaic.Lib.Pipeline.Value
import Idealize.ShloMosaic.Lib.ValueIdx
import proofs.«158989_j84241488544065_1_alg».proof.Proof.LibKeepdims
import proofs.«158989_j84241488544065_1_alg».proof.Proof.LibSoftmaxRows

noncomputable section

open scoped BigOperators

namespace Idealize.ShloMosaic.SoftmaxLanes

open Idealize.ShloMosaic Idealize.ShloMosaic.ValueIdx Idealize.ShloMosaic.SoftmaxRows

/-- A maximum over the last axis of a rank-3 vector, at (a, b): the fold of `max` over the lane coordinate. -/
theorem laneMax3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (a : Fin n0) (b : Fin n1) :
    multiReduction .maximumf [2] ⟨2, ![n0, n1]⟩ v acc h hφ hacc (ix2 a b)
      = (Finset.univ : Finset (Fin n2)).fold max (Ideal.ofBits φ acc) (fun c => v (ix3 a b c)) :=
  (Ideal.multiReduction_maximumf_single v acc h hφ hacc (ix2 a b)).trans
    (Finset.fold_congr fun c _ => congrArg v (funext fun d => Fin.ext (by
      match d with | ⟨0, _⟩ => rfl | ⟨1, _⟩ => rfl | ⟨2, _⟩ => rfl)))

/-- The keepdims softmax chain of a kernel over the lanes of `s`, at (a, b, j). -/
theorem softmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩ (multiReduction .maximumf [2] ⟨2, ![n0, n1]⟩ s accM hr hφ hM) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans (laneMax3_apply s accM hr hφ hM a b))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

end Idealize.ShloMosaic.SoftmaxLanes

end
-- ==== Proof.KernelPayloadOps.lean ====
/-
  The operations of the attention block's arithmetic, each read AT AN INDEX at the ideal values:

  * `row_apply`: a [1, 256] weight row cast to [256], to [1, 1, 256] and broadcast to [8, 200, 256] is, at (p, i, d), the
    row's entry d;
  * `scoreDot_apply`: the batched product contracting the feature axis of both operands (batch axis 0), into the zero
    splat, at (p, i, j), is the sum over d of L[p, i, d] · R[p, j, d];
  * `mixDot_apply`: the batched product contracting the left operand's lanes against the right operand's rows, into the
    zero splat, at (p, i, d), is the sum over j of L[p, i, j] · R[p, j, d];
  * `softmaxLanesMax_apply`: the keepdims softmax chain over the lanes, with the reduced maximum taken against the −∞ splat
    once more before it is cast and broadcast, at (p, i, j), is the softmax of the lane row.
-/
import proofs.«158989_j84241488544065_1_alg».proof.Proof.Gen.KernelIdeal.Skeleton
import proofs.«158989_j84241488544065_1_alg».proof.Proof.LibKeepdims
import proofs.«158989_j84241488544065_1_alg».proof.Proof.LibSoftmaxRows
import proofs.«158989_j84241488544065_1_alg».proof.Proof.LibSoftmaxLanes
import proofs.«158989_j84241488544065_1_alg».proof.Proof.Spec
import Idealize.ShloMosaic.Lib.ValueLayout

noncomputable section

open scoped BigOperators

namespace Cert.KernelIdeal.Payload

open Idealize.ShloMosaic Idealize.SL.Sem Idealize.ShloMosaic.ValueIdx Idealize.ShloMosaic.SoftmaxRows

/-- A weight row [1, 256] cast to [256], then to [1, 1, 256], and broadcast to [8, 200, 256]: entry (p, i, d) is the row's
    entry d. -/
theorem row_apply {α : Type} (v : S1x256.Idx → α) (h1 : S1x256.ShapeCasts S256) (h2 : S256.ShapeCasts S1x1x256)
    (h3 : S1x1x256.Broadcasts S8x200x256) (p : Fin 8) (i : Fin 200) (d : Fin 256) :
    broadcastTo S8x200x256 (shapeCast S1x1x256 (shapeCast S256 v h1) h2) h3 (ix3 p i d) = v (ix2 0 d) := by
  refine (broadcastTo_apply _ h3 (ix3 p i d) (ix3 0 0 d) ?_).trans ?_
  · intro a
    match a with
    | ⟨0, _⟩ => rfl
    | ⟨1, _⟩ => rfl
    | ⟨2, _⟩ => rfl
  refine (shapeCast_apply _ h2 (ix3 0 0 d) (ix1 d) ?_).trans ?_
  · rw [Shape.rowMajor_val_one, Shape.rowMajor_val_three]
    show d.val = (0 * 1 + 0) * 256 + d.val
    omega
  exact shapeCast_1a_a_apply v h1 d

/-- The product contracting the feature axis of both operands, batch axis 0, into the zero splat, at (p, i, j): the sum
    over the feature coordinate. -/
theorem scoreDot_apply {φ₁ φ₂ : FTy} (L : FVec Ideal S8x200x256 φ₁) (R : FVec Ideal S8x200x256 φ₂)
    (p : Fin 8) (i j : Fin 200) :
    matmul dot_S8x200x256_S8x200x256_S8x200x200_2_2_1_1_0_0 none L R (constant S8x200x200 .f32 0x00000000#32) (ix3 p i j)
      = ∑ d : Fin 256, L (ix3 p i d) * R (ix3 p j d) := by
  show FloatOps.matmul _ none L R _ (ix3 p i j) = _
  rw [Ideal.matmul_constant_zero_apply,
    ← Equiv.sum_comp (contrEquiv1 dot_S8x200x256_S8x200x256_S8x200x200_2_2_1_1_0_0 256 rfl rfl).symm]
  refine Finset.sum_congr rfl fun c _ => ?_
  have c3 := contrEquiv1_symm_val dot_S8x200x256_S8x200x256_S8x200x200_2_2_1_1_0_0 256 rfl rfl c
  have l3 : dot_S8x200x256_S8x200x256_S8x200x200_2_2_1_1_0_0.lhsIdx (ix3 p i j)
      ((contrEquiv1 _ 256 rfl rfl).symm c) = ix3 p i c := by
    funext ax; apply Fin.ext
    match ax with
    | ⟨0, _⟩ => simp [DotDims.lhsIdx, dot_S8x200x256_S8x200x256_S8x200x200_2_2_1_1_0_0]; rfl
    | ⟨1, _⟩ => simp [DotDims.lhsIdx, dot_S8x200x256_S8x200x256_S8x200x200_2_2_1_1_0_0]; rfl
    | ⟨2, _⟩ => simp [DotDims.lhsIdx, dot_S8x200x256_S8x200x256_S8x200x200_2_2_1_1_0_0]; exact c3
  have r3 : dot_S8x200x256_S8x200x256_S8x200x200_2_2_1_1_0_0.rhsIdx (ix3 p i j)
      ((contrEquiv1 _ 256 rfl rfl).symm c) = ix3 p j c := by
    funext ax; apply Fin.ext
    match ax with
    | ⟨0, _⟩ => simp [DotDims.rhsIdx, dot_S8x200x256_S8x200x256_S8x200x200_2_2_1_1_0_0]; rfl
    | ⟨1, _⟩ => simp [DotDims.rhsIdx, dot_S8x200x256_S8x200x256_S8x200x200_2_2_1_1_0_0]; rfl
    | ⟨2, _⟩ => simp [DotDims.rhsIdx, dot_S8x200x256_S8x200x256_S8x200x200_2_2_1_1_0_0]; exact c3
  rw [l3, r3]

/-- The product contracting the left operand's lanes against the right operand's rows, batch axis 0, into the zero splat,
    at (p, i, d): the sum over the node coordinate. -/
theorem mixDot_apply {φ₁ φ₂ : FTy} (L : FVec Ideal S8x200x200 φ₁) (R : FVec Ideal S8x200x256 φ₂)
    (p : Fin 8) (i : Fin 200) (d : Fin 256) :
    matmul dot_S8x200x200_S8x200x256_S8x200x256_2_1_1_2_0_0 none L R (constant S8x200x256 .f32 0x00000000#32) (ix3 p i d)
      = ∑ j : Fin 200, L (ix3 p i j) * R (ix3 p j d) := by
  show FloatOps.matmul _ none L R _ (ix3 p i d) = _
  rw [Ideal.matmul_constant_zero_apply,
    ← Equiv.sum_comp (contrEquiv1 dot_S8x200x200_S8x200x256_S8x200x256_2_1_1_2_0_0 200 rfl rfl).symm]
  refine Finset.sum_congr rfl fun c _ => ?_
  have c3 := contrEquiv1_symm_val dot_S8x200x200_S8x200x256_S8x200x256_2_1_1_2_0_0 200 rfl rfl c
  have l3 : dot_S8x200x200_S8x200x256_S8x200x256_2_1_1_2_0_0.lhsIdx (ix3 p i d)
      ((contrEquiv1 _ 200 rfl rfl).symm c) = ix3 p i c := by
    funext ax; apply Fin.ext
    match ax with
    | ⟨0, _⟩ => simp [DotDims.lhsIdx, dot_S8x200x200_S8x200x256_S8x200x256_2_1_1_2_0_0]; rfl
    | ⟨1, _⟩ => simp [DotDims.lhsIdx, dot_S8x200x200_S8x200x256_S8x200x256_2_1_1_2_0_0]; rfl
    | ⟨2, _⟩ => simp [DotDims.lhsIdx, dot_S8x200x200_S8x200x256_S8x200x256_2_1_1_2_0_0]; exact c3
  have r3 : dot_S8x200x200_S8x200x256_S8x200x256_2_1_1_2_0_0.rhsIdx (ix3 p i d)
      ((contrEquiv1 _ 200 rfl rfl).symm c) = ix3 p c d := by
    funext ax; apply Fin.ext
    match ax with
    | ⟨0, _⟩ => simp [DotDims.rhsIdx, dot_S8x200x200_S8x200x256_S8x200x256_2_1_1_2_0_0]; rfl
    | ⟨1, _⟩ => simp [DotDims.rhsIdx, dot_S8x200x200_S8x200x256_S8x200x256_2_1_1_2_0_0]; exact c3
    | ⟨2, _⟩ => simp [DotDims.rhsIdx, dot_S8x200x200_S8x200x256_S8x200x256_2_1_1_2_0_0]; rfl
  rw [l3, r3]

/-- The keepdims softmax chain over the lanes of `s`, the reduced maximum taken against the splat of the accumulator's
    value once more before it is cast to a column and broadcast, at (a, b, j): the softmax of the lane row at (a, b). The
    extra maximum changes nothing: the fold already starts from that value. -/
theorem softmaxLanesMax_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩
          (maximumf (broadcast ⟨2, ![n0, n1]⟩ (Scalar.ofBits (F := Ideal) .f32 accM))
            (multiReduction .maximumf [2] ⟨2, ![n0, n1]⟩ s accM hr hφ hM)) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩
            (maximumf (broadcast ⟨2, ![n0, n1]⟩ (Scalar.ofBits (F := Ideal) .f32 accM))
              (multiReduction .maximumf [2] ⟨2, ![n0, n1]⟩ s accM hr hφ hM)) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩
        (maximumf (broadcast ⟨2, ![n0, n1]⟩ (Scalar.ofBits (F := Ideal) .f32 accM))
          (multiReduction .maximumf [2] ⟨2, ![n0, n1]⟩ s accM hr hφ hM)) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans
      ((congrArg (max (Ideal.ofBits .f32 accM)) (SoftmaxLanes.laneMax3_apply s accM hr hφ hM a b)).trans
        (max_fold_max_self _ _ _)))
  have hexp : ∀ c : Fin n2, exp (subf s (broadcastTo ⟨3, ![n0, n1, n2]⟩ (shapeCast ⟨3, ![n0, n1, 1]⟩
        (maximumf (broadcast ⟨2, ![n0, n1]⟩ (Scalar.ofBits (F := Ideal) .f32 accM))
          (multiReduction .maximumf [2] ⟨2, ![n0, n1]⟩ s accM hr hφ hM)) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩
            (maximumf (broadcast ⟨2, ![n0, n1]⟩ (Scalar.ofBits (F := Ideal) .f32 accM))
              (multiReduction .maximumf [2] ⟨2, ![n0, n1]⟩ s accM hr hφ hM)) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

/-! ## The scores and the label's choice -/

/-- One score: the product of (h · the broadcast weight row), narrowed, with h narrowed, at (p, i, j), is the
    specification's score. Narrowing is the identity at the ideal values. -/
theorem scoreVec_apply {φ : FTy} (h w : FVec Ideal S8x200x256 .f32) (R : FVec Ideal S8x200x256 φ) (a : Fin 256 → EReal)
    (hw : ∀ (p : Fin 8) (i : Fin 200) (d : Fin 256), w (ix3 p i d) = a d) (hR : ∀ idx, R idx = h idx)
    (hlt : FTy.bits .bf16 < FTy.bits .f32) (p : Fin 8) (i j : Fin 200) :
    matmul dot_S8x200x256_S8x200x256_S8x200x200_2_2_1_1_0_0 none (truncf .bf16 (mulf h w) hlt) R
        (constant S8x200x200 .f32 0x00000000#32) (ix3 p i j)
      = Cert.Gat.score (B := 8) h a p i j :=
  (scoreDot_apply _ _ p i j).trans (Finset.sum_congr rfl fun d _ => by
    show (h (ix3 p i d) * w (ix3 p i d)) * R (ix3 p j d) = (h (ix3 p i d) * a d) * h (ix3 p j d)
    rw [hw, hR])

/-- One level of the label's choice at an index: where the label is `k` the leaky unit of the score vector `s`, the
    vector `rest` elsewhere. -/
theorem pickStep_apply (l : IVec S8x200x200 32) (k : BitVec 32) (s rest : FVec Ideal S8x200x200 .f32) (idx : S8x200x200.Idx)
    (x r : EReal) (hs : s idx = x) (hr : rest idx = r) :
    select (cmpi .eq l (broadcast S8x200x200 k))
        (select (cmpf .oge s (broadcast S8x200x200 (Scalar.ofBits (F := Ideal) .f32 0x00000000#32))) s
          (mulf (broadcast S8x200x200 (Scalar.ofBits (F := Ideal) .f32 0x3E4CCCCD#32)) s))
        rest idx
      = Scalar.select (IntOp.cmpi .eq (l idx) k) (Cert.Gat.leaky x) r := by
  subst hs hr
  rfl

end Cert.KernelIdeal.Payload

end
-- ==== Proof.KernelPayload.lean ====
/-
  The value the attention block stores, read AT AN INDEX at the ideal values: entry (p, i, d) of the stored block is the
  specification's result for batch element p, node i and feature d, over the loaded blocks — h, the labels, and the four
  weight rows.

  The chain, outermost operation first: the last product is a sum over the nodes j of (weight of j) · h[p, j, d]; the weight is
  the keepdims softmax over the lanes of the kept values; the kept value at (p, i, j) is the label's choice among the four
  leaky-unit scores; each score is a product contracting the feature axis of (h · a weight row) against h. A change of float
  format is the identity at the ideal values.
-/
import proofs.«158989_j84241488544065_1_alg».proof.Proof.KernelPayloadOps

noncomputable section

open scoped BigOperators

namespace Cert.KernelIdeal.Payload

open Idealize.ShloMosaic Idealize.SL.Sem Idealize.ShloMosaic.ValueIdx Idealize.ShloMosaic.SoftmaxRows

/-- The two lower levels of the label's choice (labels 2 and 1, then the fill), at (p, i, j). -/
theorem pay3_apply (v0 : Vec Ideal S8x200x256 .f32) (v1 : Vec Ideal S8x200x200 .i32) (v4 v19 : Vec Ideal S1x256 .f32)
    (p : Fin 8) (i j : Fin 200) :
    Gen.k0_pay3 v0 v1 v4 v19 (ix3 p i j)
      = Scalar.select (IntOp.cmpi .eq (v1 (ix3 p i j)) 2#32)
          (Cert.Gat.leaky (Cert.Gat.score (B := 8) v0 (fun k => v19 (ix2 0 k)) p i j))
          (Scalar.select (IntOp.cmpi .eq (v1 (ix3 p i j)) 1#32)
            (Cert.Gat.leaky (Cert.Gat.score (B := 8) v0 (fun k => v4 (ix2 0 k)) p i j))
            (Ideal.ofBits .f32 0xD9FFCB9E#32)) := by
  unfold Gen.k0_pay3
  refine pickStep_apply v1 2#32 _ _ _ _ _
    (scoreVec_apply v0 _ _ (fun k => v19 (ix2 0 k)) (fun p i d => row_apply v19 _ _ _ p i d) (fun _ => rfl) _ p i j) ?_
  exact pickStep_apply v1 1#32 _ _ _ _ _
    (scoreVec_apply v0 _ _ (fun k => v4 (ix2 0 k)) (fun p i d => row_apply v4 _ _ _ p i d) (fun _ => rfl) _ p i j) rfl

/-- The stored value at (p, i, d) is the specification's result. -/
theorem stored_apply (v0 : Vec Ideal S8x200x256 .f32) (v1 : Vec Ideal S8x200x200 .i32) (v4 v19 v34 v49 : Vec Ideal S1x256 .f32)
    (p : Fin 8) (i : Fin 200) (d : Fin 256) :
    Gen.k0_pay1 v0 v1 (Gen.k0_pay2 v0) (Gen.k0_pay3 v0 v1 v4 v19) (Gen.k0_pay4 v34) v49 (ix3 p i d)
      = Cert.Gat.outAt (B := 8) v0 v1 (fun k => v4 (ix2 0 k)) (fun k => v19 (ix2 0 k)) (fun k => v34 (ix2 0 k))
          (fun k => v49 (ix2 0 k)) p i d := by
  unfold Gen.k0_pay1
  refine (mixDot_apply _ _ p i d).trans ?_
  unfold Cert.Gat.outAt
  refine Finset.sum_congr rfl fun j _ => ?_
  refine congrArg₂ (· * ·) ?_ rfl
  refine (softmaxLanesMax_apply _ _ _ _ _ _ _ _ _ p i j).trans ?_
  refine congrArg (fun row => softmaxAt row (Ideal.ofBits .f32 0xFF800000#32) j) (funext fun c => ?_)
  unfold Cert.Gat.logit Cert.Gat.pick
  refine pickStep_apply v1 4#32 _ _ _ _ _
    (scoreVec_apply v0 _ _ (fun k => v49 (ix2 0 k)) (fun p i d => row_apply v49 _ _ _ p i d) (fun _ => rfl) _ p i c) ?_
  refine pickStep_apply v1 3#32 _ _ _ _ _
    (scoreVec_apply v0 (Gen.k0_pay4 v34) _ (fun k => v34 (ix2 0 k))
      (fun p i d => row_apply v34 Gen.shapeCasts_S1x256_S256 Gen.shapeCasts_S256_S1x1x256 Gen.broadcasts_S1x1x256_S8x200x256 p i d)
      (fun _ => rfl) _ p i c) ?_
  exact pay3_apply v0 v1 v4 v19 p i c

end Cert.KernelIdeal.Payload

end
-- ==== Proof.KernelIdealValue.lean ====
/-
  What the kernel program's result array holds after its run, as one function of the argument arrays: the 64 batch blocks
  tile the array, block t of every staged array is batch elements 8t … 8t+7 of it, the stacked weights are the four weight
  vectors, and the body's stored value at a block is the specification read at the block's batch elements.
-/
import proofs.«158989_j84241488544065_1_alg».proof.Proof.KernelIdealRun
import proofs.«158989_j84241488544065_1_alg».proof.Proof.Spec
import proofs.«158989_j84241488544065_1_alg».proof.Proof.KernelPayload
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-! ## The specification depends on one batch element only -/

/-- The result at batch element b reads h and the labels at b only: two inputs that agree there (under any renaming of
    the batch coordinate) and share the weight vectors give the same result. -/
theorem outAt_congr {B B' : Nat} (h : (⟨3, ![B, 200, 256]⟩ : Shape).Idx → EReal) (h' : (⟨3, ![B', 200, 256]⟩ : Shape).Idx → EReal)
    (l : (⟨3, ![B, 200, 200]⟩ : Shape).Idx → BitVec 32) (l' : (⟨3, ![B', 200, 200]⟩ : Shape).Idx → BitVec 32)
    (a0 a1 a2 a3 a0' a1' a2' a3' : Fin 256 → EReal) (b : Fin B) (b' : Fin B') (i : Fin 200) (d : Fin 256)
    (hh : ∀ i d, h (ix3 b i d) = h' (ix3 b' i d)) (hl : ∀ i j, l (ix3 b i j) = l' (ix3 b' i j))
    (e0 : a0 = a0') (e1 : a1 = a1') (e2 : a2 = a2') (e3 : a3 = a3') :
    Cert.Gat.outAt h l a0 a1 a2 a3 b i d = Cert.Gat.outAt h' l' a0' a1' a2' a3' b' i d := by
  subst e0 e1 e2 e3
  unfold Cert.Gat.outAt Cert.Gat.logit Cert.Gat.score
  simp only [hh, hl]

variable (m : (ℓ : Loc nD τ sig) → Buf (Elt Ideal) ℓ) (ρ : Dev nD → PrngReg)

/-! ## The stacked weights -/

/-- The [4, 256] array the region finds: the four weight vectors, each viewed as a row, stacked. -/
theorem V_stack (c : Dev nD) : (V m c main_v4 : S4x256.Idx → EReal) =
    concatenate S4x256 0 [⟨S1x256, broadcastInDim S1x256 ![1] Facts₀.bcast_S256_S1x256_1 (m ((c : Thread nD τ).loc main_arg2))⟩,
      ⟨S1x256, broadcastInDim S1x256 ![1] Facts₀.bcast_S256_S1x256_1 (m ((c : Thread nD τ).loc main_arg3))⟩,
      ⟨S1x256, broadcastInDim S1x256 ![1] Facts₀.bcast_S256_S1x256_1 (m ((c : Thread nD τ).loc main_arg4))⟩,
      ⟨S1x256, broadcastInDim S1x256 ![1] Facts₀.bcast_S256_S1x256_1 (m ((c : Thread nD τ).loc main_arg5))⟩]
      Facts₀.concatenates_S1x256_S1x256_S1x256_S1x256_S4x256_d0 := by
  dsimp only [V, hostOps0]
  after_results
  rfl

/-- Row k of four stacked [1, 256] rows, at column d, is row k's entry (0, d). -/
theorem stack_row (r : Fin 4 → (S1x256.Idx → EReal))
    (h : Shape.Concatenates [S1x256, S1x256, S1x256, S1x256] S4x256 0) (k : Fin 4) (d : Fin 256) :
    concatenate S4x256 0 [⟨S1x256, r 0⟩, ⟨S1x256, r 1⟩, ⟨S1x256, r 2⟩, ⟨S1x256, r 3⟩] h (ix2 k d) = r k (ix2 0 d) :=
  concatenate_ofFn_unit_apply (t := S4x256) (s₁ := S1x256) (0 : Fin 2) r h rfl rfl (ix2 k d) k rfl (ix2 0 d) (fun b hb => by
    match b with
    | ⟨0, _⟩ => exact absurd rfl hb
    | ⟨1, _⟩ => rfl)

/-- A vector viewed as a [1, 256] row, at (0, d), is its entry d. -/
theorem row_apply (x : S256.Idx → EReal) (d : Fin 256) :
    broadcastInDim S1x256 ![1] Facts₀.bcast_S256_S1x256_1 x (ix2 0 d) = x (ix1 d) :=
  broadcastInDim_apply _ _ x (ix2 0 d) (ix1 d) (fun a => by match a with | ⟨0, _⟩ => rfl)

/-- The stacked weights at (k, d), for the four rows. -/
theorem V_stack_0 (c : Dev nD) (d : Fin 256) : (V m c main_v4 : S4x256.Idx → EReal) (ix2 0 d) = m ((c : Thread nD τ).loc main_arg2) (ix1 d) := by
  rw [V_stack]
  exact (stack_row ![_, _, _, _] _ 0 d).trans (row_apply _ d)
theorem V_stack_1 (c : Dev nD) (d : Fin 256) : (V m c main_v4 : S4x256.Idx → EReal) (ix2 1 d) = m ((c : Thread nD τ).loc main_arg3) (ix1 d) := by
  rw [V_stack]
  exact (stack_row ![_, _, _, _] _ 1 d).trans (row_apply _ d)
theorem V_stack_2 (c : Dev nD) (d : Fin 256) : (V m c main_v4 : S4x256.Idx → EReal) (ix2 2 d) = m ((c : Thread nD τ).loc main_arg4) (ix1 d) := by
  rw [V_stack]
  exact (stack_row ![_, _, _, _] _ 2 d).trans (row_apply _ d)
theorem V_stack_3 (c : Dev nD) (d : Fin 256) : (V m c main_v4 : S4x256.Idx → EReal) (ix2 3 d) = m ((c : Thread nD τ).loc main_arg5) (ix1 d) := by
  rw [V_stack]
  exact (stack_row ![_, _, _, _] _ 3 d).trans (row_apply _ d)

/-! ## The blocks -/

/-- The block index of each window at each of the 64 points: the three batch-tiled windows are at block t of the batch
    axis, the stacked weights always at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Block t of h, at (p, i, d), is h at batch element 8t + p. -/
theorem blk0_apply (c : Dev nD) (t : Fin cfg0.N) (p : Fin 8) (i : Fin 200) (d : Fin 256) (q : Fin 512) (hq : q.val = 8 * t.val + p.val) :
    iblk m c 0 t (ix3 p i d) = V m c main_arg0 (ix3 q i d) := by
  show V m c main_arg0 (((cfg0.win 0).blk t).view.emb (ix3 p i d)) = V m c main_arg0 (ix3 q i d)
  refine congrArg _ (funext fun a => Fin.ext ?_)
  obtain ⟨e0, e1, e2, -⟩ := idx_facts t
  match a with
  | ⟨0, _⟩ => show win0_0.index t (0 : Fin 3) * 8 + 1 * p.val = q.val; omega
  | ⟨1, _⟩ => show win0_0.index t (1 : Fin 3) * 200 + 1 * i.val = i.val; omega
  | ⟨2, _⟩ => show win0_0.index t (2 : Fin 3) * 256 + 1 * d.val = d.val; omega

/-- Block t of the labels, at (p, i, j), is the labels at batch element 8t + p. -/
theorem blk1_apply (c : Dev nD) (t : Fin cfg0.N) (p : Fin 8) (i j : Fin 200) (q : Fin 512) (hq : q.val = 8 * t.val + p.val) :
    iblk m c 1 t (ix3 p i j) = V m c main_arg1 (ix3 q i j) := by
  show V m c main_arg1 (((cfg0.win 1).blk t).view.emb (ix3 p i j)) = V m c main_arg1 (ix3 q i j)
  refine congrArg _ (funext fun a => Fin.ext ?_)
  obtain ⟨-, -, -, e0, e1, e2, -⟩ := idx_facts t
  match a with
  | ⟨0, _⟩ => show win0_1.index t (0 : Fin 3) * 8 + 1 * p.val = q.val; omega
  | ⟨1, _⟩ => show win0_1.index t (1 : Fin 3) * 200 + 1 * i.val = i.val; omega
  | ⟨2, _⟩ => show win0_1.index t (2 : Fin 3) * 200 + 1 * j.val = j.val; omega

/-- The one block of the stacked weights is the whole stack. -/
theorem blk2_apply (c : Dev nD) (t : Fin cfg0.N) (k : Fin 4) (d : Fin 256) :
    iblk m c 2 t (ix2 k d) = (V m c main_v4 : S4x256.Idx → EReal) (ix2 k d) := by
  show (V m c main_v4 : S4x256.Idx → EReal) (((cfg0.win 2).blk t).view.emb (ix2 k d)) = V m c main_v4 (ix2 k d)
  refine congrArg _ (funext fun a => Fin.ext ?_)
  obtain ⟨-, -, -, -, -, -, e0, e1, -⟩ := idx_facts t
  match a with
  | ⟨0, _⟩ => show win0_2.index t (0 : Fin 2) * 4 + 1 * k.val = k.val; omega
  | ⟨1, _⟩ => show win0_2.index t (1 : Fin 2) * 256 + 1 * d.val = d.val; omega

/-- Row k of a [4, 256] block, loaded as a [1, 256] vector, at (0, d). -/
theorem row_ld (x : Vec Ideal S4x256 .f32) (k : Fin 4) (inb : ∀ a, (![k.val, 0] : Fin 2 → Nat) a + S1x256.size a ≤ S4x256.size a) (d : Fin 256) :
    View.ld (Val := Elt Ideal) x (Rect.unit (s := S4x256) ![k.val, 0] S1x256.size inb) (ix2 0 d) = x (ix2 k d) := by
  show x ((Rect.unit (s := S4x256) ![k.val, 0] S1x256.size inb).idx (ix2 0 d)) = x (ix2 k d)
  refine congrArg _ (funext fun a => Fin.ext ?_)
  match a with
  | ⟨0, _⟩ => show k.val + 1 * 0 = k.val; omega
  | ⟨1, _⟩ => show 0 + 1 * d.val = d.val; omega

theorem hz3 : (![0, 0, 0] : Fin 3 → Nat) = fun _ => 0 := funext fun a => by fin_cases a <;> rfl

/-! ## The result array -/

/-- The result array as one function of the argument arrays. -/
def G (h : S512x200x256.Idx → EReal) (l : S512x200x200.Idx → BitVec 32) (a0 a1 a2 a3 : S256.Idx → EReal) : S512x200x256.Idx → EReal :=
  fun x => Cert.Gat.outAt (B := 512) h l (fun k => a0 (ix1 k)) (fun k => a1 (ix1 k)) (fun k => a2 (ix1 k)) (fun k => a3 (ix1 k)) (x 0) (x 1) (x 2)

/-- What point t writes back is block t of G of the arrays the region finds. -/
theorem flushed_eq (c : Dev nD) (t : Fin cfg0.N) :
    (dats m 0 c).flushed 3 t = ((cfg0.win 3).blk t).view.read (Elt Ideal)
      (G (V m c main_arg0) (V m c main_arg1) (m ((c : Thread nD τ).loc main_arg2)) (m ((c : Thread nD τ).loc main_arg3))
        (m ((c : Thread nD τ).loc main_arg4)) (m ((c : Thread nD τ).loc main_arg5))) := by
  show (cfg0.win 3).cut (grid0.coords t) ((dats m 0 c).after 3 t) = _
  rw [after0_3]
  unfold out0_3
  rw [View.canon_unit_zero hz3]
  unfold stored
  simp only [View.ld_unit_zero (S := S8x200x256) hz3, View.ld_unit_zero (S := S8x200x200) hz3]
  funext j
  obtain ⟨p, i, d, rfl⟩ : ∃ (p : Fin 8) (i : Fin 200) (d : Fin 256), j = ix3 p i d := ⟨j 0, j 1, j 2, eq_ix3 j⟩
  have ht : t.val < 64 := Nat.lt_of_lt_of_eq t.isLt N_0
  obtain ⟨-, -, -, -, -, -, -, -, e0, e1, e2⟩ := idx_facts t
  have hemb : ((cfg0.win 3).blk t).view.emb (ix3 p i d) = ix3 (⟨8 * t.val + p.val, by have := p.isLt; omega⟩ : Fin 512) i d := by
    refine funext fun a => Fin.ext ?_
    match a with
    | ⟨0, _⟩ => show win0_3.index t (0 : Fin 3) * 8 + 1 * p.val = 8 * t.val + p.val; omega
    | ⟨1, _⟩ => show win0_3.index t (1 : Fin 3) * 200 + 1 * i.val = i.val; omega
    | ⟨2, _⟩ => show win0_3.index t (2 : Fin 3) * 256 + 1 * d.val = d.val; omega
  refine (Cert.KernelIdeal.Payload.stored_apply (iblk m c 0 t) (iblk m c 1 t) _ _ _ _ p i d).trans ?_
  show _ = G _ _ _ _ _ _ (((cfg0.win 3).blk t).view.emb (ix3 p i d))
  rw [hemb]
  unfold G
  refine outAt_congr _ _ _ _ _ _ _ _ _ _ _ _ p _ i d (fun i d => blk0_apply m c t p i d _ rfl) (fun i j => blk1_apply m c t p i j _ rfl) ?_ ?_ ?_ ?_
  · funext k; exact (row_ld _ 0 _ k).trans ((blk2_apply m c t 0 k).trans (V_stack_0 m c k))
  · funext k; exact (row_ld _ 1 _ k).trans ((blk2_apply m c t 1 k).trans (V_stack_1 m c k))
  · funext k; exact (row_ld _ 2 _ k).trans ((blk2_apply m c t 2 k).trans (V_stack_2 m c k))
  · funext k; exact (row_ld _ 3 _ k).trans ((blk2_apply m c t 3 k).trans (V_stack_3 m c k))

/-- An index of the result array is in point t's block iff each coordinate is in the block's range. -/
theorem mem_blk (t : Fin cfg0.N) (i : S512x200x256.Idx) :
    i ∈ ((cfg0.win 3).blk t).view.set ↔ ∀ a : Fin 3, win0_3.index t a * S8x200x256.size a ≤ (i a).val ∧ (i a).val < win0_3.index t a * S8x200x256.size a + S8x200x256.size a := by
  show i ∈ ((View.whole main_v5).slice (win0_3.rect t)).set ↔ _
  rw [View.set_slice_whole, Rect.mem_set_unit]
  exact Iff.rfl

/-- Every index of the result array is in the block of the point its batch coordinate names. -/
theorem cover (i : S512x200x256.Idx) : ∃ t : Fin cfg0.N, (cfg0.win 3).flush t = true ∧ i ∈ ((cfg0.win 3).blk t).view.set := by
  have hi0 : (i 0).val < 512 := (i 0).isLt
  have hi1 : (i 1).val < 200 := (i 1).isLt
  have hi2 : (i 2).val < 256 := (i 2).isLt
  let t : Fin cfg0.N := ⟨(i 0).val / 8, Nat.lt_of_lt_of_eq (by omega : (i 0).val / 8 < 64) N_0.symm⟩
  refine ⟨t, flush0_3 t, ?_⟩
  rw [mem_blk]
  obtain ⟨-, -, -, -, -, -, -, -, e0, e1, e2⟩ := idx_facts t
  have ht : t.val = (i 0).val / 8 := rfl
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 200 ≤ (i 1).val ∧ (i 1).val < win0_3.index t (1 : Fin 3) * 200 + 200; omega
  | ⟨2, _⟩ => show win0_3.index t (2 : Fin 3) * 256 ≤ (i 2).val ∧ (i 2).val < win0_3.index t (2 : Fin 3) * 256 + 256; omega

/-- The result array after the run is G of the argument arrays as launched. -/
theorem final (c : Dev nD) : (dats m 0 c).arrAt 3 cfg0.N =
    G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  rw [← V_main_arg0 m c, ← V_main_arg1 m c]
  exact (dats m 0 c).arrAt_eq_of_cover 3 _ (fun t _ => flushed_eq m c t) cover

/-- The run: the result array at G of the arguments, the arguments unchanged. -/
theorem run : θ_run (defs (F := Ideal)) (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.HandValue

end
-- ==== Proof.RefTerm.lean ====
/-
  The reference program's result as one pure term of its argument arrays, operation by operation: per weight vector the
  scores (h scaled by the vector, contracted with h over the feature axis) through the leaky unit, the label's choice among
  the four with the large negative fill, the softmax over the last axis (maximum from −∞, once more against −∞, subtract,
  exponentiate, sum from 0, divide), and the contraction of the weights with h over the node axis.
-/
import proofs.«158989_j84241488544065_1_alg».proof.ReferenceIdeal
import proofs.«158989_j84241488544065_1_alg».proof.Proof.Gen.ReferenceIdeal
import Idealize.ShloMosaic.PureOps.Ideal

noncomputable section

namespace Cert.ReferenceIdeal.RefTerm

open Cert.ReferenceIdeal Idealize.ShloMosaic Cert.ReferenceIdeal.Facts₀

/-- h with every feature row scaled by the weight vector a. -/
def scaled (h : FVec Ideal S512x200x256 .f32) (a : FVec Ideal S256 .f32) : FVec Ideal S512x200x256 .f32 :=
  mulf h (broadcastInDim S512x200x256 ![0, 1, 2] bcast_S1x1x256_S512x200x256_0_1_2 (broadcastInDim S1x1x256 ![2] bcast_S256_S1x1x256_2 a))

/-- The pair scores under a. -/
def scores (h : FVec Ideal S512x200x256 .f32) (a : FVec Ideal S256 .f32) : FVec Ideal S512x200x200 .f32 :=
  Host.dotGeneral (F := Ideal) dot_S512x200x256_S512x200x256_S512x200x200_2_2_1_1_0_0 none (scaled h a) h

/-- A scalar constant spread over the score array. -/
def splat (b : BitVec 32) : FVec Ideal S512x200x200 .f32 :=
  broadcastInDim S512x200x200 ![] bcast_S_S512x200x200 (constant (F := Ideal) S_ .f32 b)

/-- The leaky unit on the score array. -/
def leakyV (s : FVec Ideal S512x200x200 .f32) : FVec Ideal S512x200x200 .f32 :=
  select (cmpf .oge s (splat 0x00000000#32)) s (mulf (splat 0x3E4CCCCD#32) s)

/-- Where the label equals k. -/
def labelIs (l : IVec S512x200x200 32) (k : BitVec 32) : IVec S512x200x200 1 :=
  cmpi .eq l (broadcastInDim S512x200x200 ![] bcast_S_S512x200x200 (constantI S_ 32 k))

/-- The kept values before the softmax. -/
def logits (h : FVec Ideal S512x200x256 .f32) (l : IVec S512x200x200 32) (a0 a1 a2 a3 : FVec Ideal S256 .f32) : FVec Ideal S512x200x200 .f32 :=
  select (labelIs l 4#32) (leakyV (scores h a3))
    (select (labelIs l 3#32) (leakyV (scores h a2))
      (select (labelIs l 2#32) (leakyV (scores h a1))
        (select (labelIs l 1#32) (leakyV (scores h a0)) (splat 0xD9FFCB9E#32))))

/-- A [512, 200] array spread back along the last axis. -/
def spread (v : FVec Ideal S512x200 .f32) : FVec Ideal S512x200x200 .f32 :=
  broadcastInDim S512x200x200 ![0, 1, 2] bcast_S512x200x1_S512x200x200_0_1_2 (broadcastInDim S512x200x1 ![0, 1] bcast_S512x200_S512x200x1_0_1 v)

/-- The row maxima, from −∞ and once more against −∞. -/
def rowMax (x : FVec Ideal S512x200x200 .f32) : FVec Ideal S512x200 .f32 :=
  maximumf (broadcastInDim S512x200 ![] bcast_S_S512x200 (constant (F := Ideal) S_ .f32 0xFF800000#32))
    (Host.reduce (FloatOps.maximumf (F := Ideal) (φ := .f32)) x (constant (F := Ideal) S_ .f32 0xFF800000#32) reducesTo_S512x200x200_S512x200_d2 h_S_)

/-- The exponentials of the values less their row maximum. -/
def expo (x : FVec Ideal S512x200x200 .f32) : FVec Ideal S512x200x200 .f32 :=
  Host.exp (F := Ideal) (subf x (spread (rowMax x)))

/-- The softmax over the last axis. -/
def softmaxV (x : FVec Ideal S512x200x200 .f32) : FVec Ideal S512x200x200 .f32 :=
  Host.divf (F := Ideal) (expo x)
    (spread (Host.reduceAdd (F := Ideal) (expo x) (constant (F := Ideal) S_ .f32 0x00000000#32) reducesTo_S512x200x200_S512x200_d2 h_S_))

/-- The reference's result. -/
def result (h : FVec Ideal S512x200x256 .f32) (l : IVec S512x200x200 32) (a0 a1 a2 a3 : FVec Ideal S256 .f32) : FVec Ideal S512x200x256 .f32 :=
  Host.dotGeneral (F := Ideal) dot_S512x200x200_S512x200x256_S512x200x256_2_1_1_2_0_0 none (softmaxV (logits h l a0 a1 a2 a3)) h

end Cert.ReferenceIdeal.RefTerm

end
-- ==== Proof.RefRun.lean ====
/-
  The reference program's @main as a straight line of host operations (its module-local functions unfolded
  at their call sites, each over that call's own buffers), and the run: every weakly fair execution terminates
  with the result buffer at the operations' composed pure term of the arguments' launch contents — the term
  RefTerm.result spells stage by stage — and the arguments unchanged.
-/
import proofs.«158989_j84241488544065_1_alg».proof.Proof.Gen.ReferenceIdeal
import proofs.«158989_j84241488544065_1_alg».proof.Proof.RefTerm
import Idealize.ShloMosaic.Lib.StableHlo.Run
import Idealize.ShloMosaic.Lib.Pipeline.Regions
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The operations -/

variable {F : FTy → Type} [FloatOps F]

/-- @main's 82 operations in order, the calls unfolded: each leaky unit is seven (the zero, its broadcast, the
    comparison, the slope converted to its own type, its broadcast, the product, the selection), the first
    selection on the label three (the fill converted, its broadcast, the selection), the other three one each. -/
abbrev ops : List (HloOp τ sig (Elt F)) :=
  [ unary main_arg2 main_v0 (broadcastInDim S1x1x256 ![2] bcast_S256_S1x1x256_2 : (⟨S256, .f32⟩ : BufTy).Contents (Elt F) → (⟨S1x1x256, .f32⟩ : BufTy).Contents (Elt F)),
    unary main_v0 main_v1 (broadcastInDim S512x200x256 ![0, 1, 2] bcast_S1x1x256_S512x200x256_0_1_2 : (⟨S1x1x256, .f32⟩ : BufTy).Contents (Elt F) → (⟨S512x200x256, .f32⟩ : BufTy).Contents (Elt F)),
    binary main_arg0 main_v1 main_v2 (mulf : (⟨S512x200x256, .f32⟩ : BufTy).Contents (Elt F) → (⟨S512x200x256, .f32⟩ : BufTy).Contents (Elt F) → (⟨S512x200x256, .f32⟩ : BufTy).Contents (Elt F)),
    binary main_v2 main_arg0 main_v3 ((fun l r => Host.dotGeneral dot_S512x200x256_S512x200x256_S512x200x200_2_2_1_1_0_0 none l r) : (⟨S512x200x256, .f32⟩ : BufTy).Contents (Elt F) → (⟨S512x200x256, .f32⟩ : BufTy).Contents (Elt F) → (⟨S512x200x200, .f32⟩ : BufTy).Contents (Elt F)),
    nullary main_cst (constant S_ .f32 0x3E4CCCCD#32),
    TRef.nullary main_call0.cst (constant S_ .f32 0x00000000#32),
    TRef.unary main_call0.cst main_call0.v0 (broadcastInDim S512x200x200 ![] bcast_S_S512x200x200),
    TRef.binary (.of main_v3) main_call0.v0 main_call0.v1 (cmpf .oge),
    TRef.unary (.of main_cst) main_call0.v2 id,
    TRef.unary main_call0.v2 main_call0.v3 (broadcastInDim S512x200x200 ![] bcast_S_S512x200x200),
    TRef.binary main_call0.v3 (.of main_v3) main_call0.v4 mulf,
    TRef.ternary main_call0.v1 (.of main_v3) main_call0.v4 main_call0.call0.v0 select,
    unary main_arg3 main_v5 (broadcastInDim S1x1x256 ![2] bcast_S256_S1x1x256_2 : (⟨S256, .f32⟩ : BufTy).Contents (Elt F) → (⟨S1x1x256, .f32⟩ : BufTy).Contents (Elt F)),
    unary main_v5 main_v6 (broadcastInDim S512x200x256 ![0, 1, 2] bcast_S1x1x256_S512x200x256_0_1_2 : (⟨S1x1x256, .f32⟩ : BufTy).Contents (Elt F) → (⟨S512x200x256, .f32⟩ : BufTy).Contents (Elt F)),
    binary main_arg0 main_v6 main_v7 (mulf : (⟨S512x200x256, .f32⟩ : BufTy).Contents (Elt F) → (⟨S512x200x256, .f32⟩ : BufTy).Contents (Elt F) → (⟨S512x200x256, .f32⟩ : BufTy).Contents (Elt F)),
    binary main_v7 main_arg0 main_v8 ((fun l r => Host.dotGeneral dot_S512x200x256_S512x200x256_S512x200x200_2_2_1_1_0_0 none l r) : (⟨S512x200x256, .f32⟩ : BufTy).Contents (Elt F) → (⟨S512x200x256, .f32⟩ : BufTy).Contents (Elt F) → (⟨S512x200x200, .f32⟩ : BufTy).Contents (Elt F)),
    nullary main_cst_0 (constant S_ .f32 0x3E4CCCCD#32),
    TRef.nullary main_call1.cst (constant S_ .f32 0x00000000#32),
    TRef.unary main_call1.cst main_call1.v0 (broadcastInDim S512x200x200 ![] bcast_S_S512x200x200),
    TRef.binary (.of main_v8) main_call1.v0 main_call1.v1 (cmpf .oge),
    TRef.unary (.of main_cst_0) main_call1.v2 id,
    TRef.unary main_call1.v2 main_call1.v3 (broadcastInDim S512x200x200 ![] bcast_S_S512x200x200),
    TRef.binary main_call1.v3 (.of main_v8) main_call1.v4 mulf,
    TRef.ternary main_call1.v1 (.of main_v8) main_call1.v4 main_call1.call0.v0 select,
    unary main_arg4 main_v10 (broadcastInDim S1x1x256 ![2] bcast_S256_S1x1x256_2 : (⟨S256, .f32⟩ : BufTy).Contents (Elt F) → (⟨S1x1x256, .f32⟩ : BufTy).Contents (Elt F)),
    unary main_v10 main_v11 (broadcastInDim S512x200x256 ![0, 1, 2] bcast_S1x1x256_S512x200x256_0_1_2 : (⟨S1x1x256, .f32⟩ : BufTy).Contents (Elt F) → (⟨S512x200x256, .f32⟩ : BufTy).Contents (Elt F)),
    binary main_arg0 main_v11 main_v12 (mulf : (⟨S512x200x256, .f32⟩ : BufTy).Contents (Elt F) → (⟨S512x200x256, .f32⟩ : BufTy).Contents (Elt F) → (⟨S512x200x256, .f32⟩ : BufTy).Contents (Elt F)),
    binary main_v12 main_arg0 main_v13 ((fun l r => Host.dotGeneral dot_S512x200x256_S512x200x256_S512x200x200_2_2_1_1_0_0 none l r) : (⟨S512x200x256, .f32⟩ : BufTy).Contents (Elt F) → (⟨S512x200x256, .f32⟩ : BufTy).Contents (Elt F) → (⟨S512x200x200, .f32⟩ : BufTy).Contents (Elt F)),
    nullary main_cst_1 (constant S_ .f32 0x3E4CCCCD#32),
    TRef.nullary main_call2.cst (constant S_ .f32 0x00000000#32),
    TRef.unary main_call2.cst main_call2.v0 (broadcastInDim S512x200x200 ![] bcast_S_S512x200x200),
    TRef.binary (.of main_v13) main_call2.v0 main_call2.v1 (cmpf .oge),
    TRef.unary (.of main_cst_1) main_call2.v2 id,
    TRef.unary main_call2.v2 main_call2.v3 (broadcastInDim S512x200x200 ![] bcast_S_S512x200x200),
    TRef.binary main_call2.v3 (.of main_v13) main_call2.v4 mulf,
    TRef.ternary main_call2.v1 (.of main_v13) main_call2.v4 main_call2.call0.v0 select,
    unary main_arg5 main_v15 (broadcastInDim S1x1x256 ![2] bcast_S256_S1x1x256_2 : (⟨S256, .f32⟩ : BufTy).Contents (Elt F) → (⟨S1x1x256, .f32⟩ : BufTy).Contents (Elt F)),
    unary main_v15 main_v16 (broadcastInDim S512x200x256 ![0, 1, 2] bcast_S1x1x256_S512x200x256_0_1_2 : (⟨S1x1x256, .f32⟩ : BufTy).Contents (Elt F) → (⟨S512x200x256, .f32⟩ : BufTy).Contents (Elt F)),
    binary main_arg0 main_v16 main_v17 (mulf : (⟨S512x200x256, .f32⟩ : BufTy).Contents (Elt F) → (⟨S512x200x256, .f32⟩ : BufTy).Contents (Elt F) → (⟨S512x200x256, .f32⟩ : BufTy).Contents (Elt F)),
    binary main_v17 main_arg0 main_v18 ((fun l r => Host.dotGeneral dot_S512x200x256_S512x200x256_S512x200x200_2_2_1_1_0_0 none l r) : (⟨S512x200x256, .f32⟩ : BufTy).Contents (Elt F) → (⟨S512x200x256, .f32⟩ : BufTy).Contents (Elt F) → (⟨S512x200x200, .f32⟩ : BufTy).Contents (Elt F)),
    nullary main_cst_2 (constant S_ .f32 0x3E4CCCCD#32),
    TRef.nullary main_call3.cst (constant S_ .f32 0x00000000#32),
    TRef.unary main_call3.cst main_call3.v0 (broadcastInDim S512x200x200 ![] bcast_S_S512x200x200),
    TRef.binary (.of main_v18) main_call3.v0 main_call3.v1 (cmpf .oge),
    TRef.unary (.of main_cst_2) main_call3.v2 id,
    TRef.unary main_call3.v2 main_call3.v3 (broadcastInDim S512x200x200 ![] bcast_S_S512x200x200),
    TRef.binary main_call3.v3 (.of main_v18) main_call3.v4 mulf,
    TRef.ternary main_call3.v1 (.of main_v18) main_call3.v4 main_call3.call0.v0 select,
    nullary main_c (constantI S_ 32 1#32),
    unary main_c main_v20 (broadcastInDim S512x200x200 ![] bcast_S_S512x200x200 : (⟨S_, .i32⟩ : BufTy).Contents (Elt F) → (⟨S512x200x200, .i32⟩ : BufTy).Contents (Elt F)),
    binary main_arg1 main_v20 main_v21 (cmpi .eq : (⟨S512x200x200, .i32⟩ : BufTy).Contents (Elt F) → (⟨S512x200x200, .i32⟩ : BufTy).Contents (Elt F) → (⟨S512x200x200, .i1⟩ : BufTy).Contents (Elt F)),
    nullary main_cst_3 (constant S_ .f32 0xD9FFCB9E#32),
    TRef.unary (.of main_cst_3) main_call4.v0 id,
    TRef.unary main_call4.v0 main_call4.v1 (broadcastInDim S512x200x200 ![] bcast_S_S512x200x200),
    TRef.ternary (.of main_v21) (.of main_v4) main_call4.v1 main_call4.v2 select,
    nullary main_c_4 (constantI S_ 32 2#32),
    unary main_c_4 main_v23 (broadcastInDim S512x200x200 ![] bcast_S_S512x200x200 : (⟨S_, .i32⟩ : BufTy).Contents (Elt F) → (⟨S512x200x200, .i32⟩ : BufTy).Contents (Elt F)),
    binary main_arg1 main_v23 main_v24 (cmpi .eq : (⟨S512x200x200, .i32⟩ : BufTy).Contents (Elt F) → (⟨S512x200x200, .i32⟩ : BufTy).Contents (Elt F) → (⟨S512x200x200, .i1⟩ : BufTy).Contents (Elt F)),
    TRef.ternary (.of main_v24) (.of main_v9) (.of main_v22) main_call5.v0 select,
    nullary main_c_5 (constantI S_ 32 3#32),
    unary main_c_5 main_v26 (broadcastInDim S512x200x200 ![] bcast_S_S512x200x200 : (⟨S_, .i32⟩ : BufTy).Contents (Elt F) → (⟨S512x200x200, .i32⟩ : BufTy).Contents (Elt F)),
    binary main_arg1 main_v26 main_v27 (cmpi .eq : (⟨S512x200x200, .i32⟩ : BufTy).Contents (Elt F) → (⟨S512x200x200, .i32⟩ : BufTy).Contents (Elt F) → (⟨S512x200x200, .i1⟩ : BufTy).Contents (Elt F)),
    TRef.ternary (.of main_v27) (.of main_v14) (.of main_v25) main_call6.v0 select,
    nullary main_c_6 (constantI S_ 32 4#32),
    unary main_c_6 main_v29 (broadcastInDim S512x200x200 ![] bcast_S_S512x200x200 : (⟨S_, .i32⟩ : BufTy).Contents (Elt F) → (⟨S512x200x200, .i32⟩ : BufTy).Contents (Elt F)),
    binary main_arg1 main_v29 main_v30 (cmpi .eq : (⟨S512x200x200, .i32⟩ : BufTy).Contents (Elt F) → (⟨S512x200x200, .i32⟩ : BufTy).Contents (Elt F) → (⟨S512x200x200, .i1⟩ : BufTy).Contents (Elt F)),
    TRef.ternary (.of main_v30) (.of main_v19) (.of main_v28) main_call7.v0 select,
    nullary main_cst_7 (constant S_ .f32 0xFF800000#32),
    binary main_v31 main_cst_7 main_v32 ((fun x v => Host.reduce FloatOps.maximumf x v reducesTo_S512x200x200_S512x200_d2 h_S_) : (⟨S512x200x200, .f32⟩ : BufTy).Contents (Elt F) → (⟨S_, .f32⟩ : BufTy).Contents (Elt F) → (⟨S512x200, .f32⟩ : BufTy).Contents (Elt F)),
    nullary main_cst_8 (constant S_ .f32 0xFF800000#32),
    unary main_cst_8 main_v33 (broadcastInDim S512x200 ![] bcast_S_S512x200 : (⟨S_, .f32⟩ : BufTy).Contents (Elt F) → (⟨S512x200, .f32⟩ : BufTy).Contents (Elt F)),
    binary main_v33 main_v32 main_v34 (maximumf : (⟨S512x200, .f32⟩ : BufTy).Contents (Elt F) → (⟨S512x200, .f32⟩ : BufTy).Contents (Elt F) → (⟨S512x200, .f32⟩ : BufTy).Contents (Elt F)),
    unary main_v34 main_v35 (broadcastInDim S512x200x1 ![0, 1] bcast_S512x200_S512x200x1_0_1 : (⟨S512x200, .f32⟩ : BufTy).Contents (Elt F) → (⟨S512x200x1, .f32⟩ : BufTy).Contents (Elt F)),
    unary main_v35 main_v36 (broadcastInDim S512x200x200 ![0, 1, 2] bcast_S512x200x1_S512x200x200_0_1_2 : (⟨S512x200x1, .f32⟩ : BufTy).Contents (Elt F) → (⟨S512x200x200, .f32⟩ : BufTy).Contents (Elt F)),
    binary main_v31 main_v36 main_v37 (subf : (⟨S512x200x200, .f32⟩ : BufTy).Contents (Elt F) → (⟨S512x200x200, .f32⟩ : BufTy).Contents (Elt F) → (⟨S512x200x200, .f32⟩ : BufTy).Contents (Elt F)),
    unary main_v37 main_v38 (Host.exp : (⟨S512x200x200, .f32⟩ : BufTy).Contents (Elt F) → (⟨S512x200x200, .f32⟩ : BufTy).Contents (Elt F)),
    nullary main_cst_9 (constant S_ .f32 0x00000000#32),
    binary main_v38 main_cst_9 main_v39 ((fun x v => Host.reduceAdd x v reducesTo_S512x200x200_S512x200_d2 h_S_) : (⟨S512x200x200, .f32⟩ : BufTy).Contents (Elt F) → (⟨S_, .f32⟩ : BufTy).Contents (Elt F) → (⟨S512x200, .f32⟩ : BufTy).Contents (Elt F)),
    unary main_v39 main_v40 (broadcastInDim S512x200x1 ![0, 1] bcast_S512x200_S512x200x1_0_1 : (⟨S512x200, .f32⟩ : BufTy).Contents (Elt F) → (⟨S512x200x1, .f32⟩ : BufTy).Contents (Elt F)),
    unary main_v40 main_v41 (broadcastInDim S512x200x200 ![0, 1, 2] bcast_S512x200x1_S512x200x200_0_1_2 : (⟨S512x200x1, .f32⟩ : BufTy).Contents (Elt F) → (⟨S512x200x200, .f32⟩ : BufTy).Contents (Elt F)),
    binary main_v38 main_v41 main_v42 (Host.divf : (⟨S512x200x200, .f32⟩ : BufTy).Contents (Elt F) → (⟨S512x200x200, .f32⟩ : BufTy).Contents (Elt F) → (⟨S512x200x200, .f32⟩ : BufTy).Contents (Elt F)),
    binary main_v42 main_arg0 main_v43 ((fun l r => Host.dotGeneral dot_S512x200x200_S512x200x256_S512x200x256_2_1_1_2_0_0 none l r) : (⟨S512x200x200, .f32⟩ : BufTy).Contents (Elt F) → (⟨S512x200x256, .f32⟩ : BufTy).Contents (Elt F) → (⟨S512x200x256, .f32⟩ : BufTy).Contents (Elt F)) ]

/-- @main is that straight line: the functions' definitions unfolded at their calls, both sides are one chain of
    steps once sequencing is reassociated. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-! ## What the line leaves in each buffer -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

attribute [local irreducible] Host.reduce Host.reduceAdd Host.exp Host.divf broadcastInDim in
set_option maxRecDepth 8192 in
set_option maxHeartbeats 1000000 in
/-- The result buffer after the line: each operation's result read at its own buffer is its function of what
    its operands' buffers held, and the typed references' transports are the identity at these literal
    references, so the fold is the composed term, which the stage definitions of RefTerm unfold to. -/
theorem out_eq (V : Valuation τ sig (Elt Ideal)) :
    after ops V (main_v43 : DevRef τ sig)
      = RefTerm.result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! ## The run -/

/-- On every device, from any memory with zero counters: every weakly fair execution of @main terminates with the
    result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨(h c main_v43).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefTermValue.lean ====
/-
  The reference's result, the pure term of its argument arrays, read AT AN INDEX at the ideal values: entry (b, i, d) is the
  specification's result. One small lemma per stage, each over variables:

  * a weight vector viewed [1, 1, 256] and spread over [512, 200, 256] reads its own entry d, so the scaled array at
    (b, i, d) is h[b, i, d] · a[d];
  * the batched product contracting the feature axis of both operands, at (b, i, j), is the sum over d — the score;
  * a scalar constant spread over an array reads the constant; the leaky unit and the label's choice are entry by entry;
  * the row maximum at (b, i) is the fold of max from −∞ over the row (the second maximum against −∞ changes nothing); a
    [512, 200] array kept as a column and spread along the row reads its (b, i) entry; the exponential and the quotient are
    entry by entry, and the row sum from zero is the sum over the row: together the softmax of the row;
  * the last batched product, at (b, i, d), is the sum over the nodes j of weight(j) · h[b, j, d].
-/
import proofs.«158989_j84241488544065_1_alg».proof.Proof.RefTerm
import proofs.«158989_j84241488544065_1_alg».proof.Proof.Spec
import proofs.«158989_j84241488544065_1_alg».proof.Proof.LibKeepdims
import proofs.«158989_j84241488544065_1_alg».proof.Proof.LibSoftmaxRows
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.ReferenceIdeal.RefTermValue

open Cert.ReferenceIdeal Idealize.ShloMosaic Idealize.ShloMosaic.ValueIdx Idealize.ShloMosaic.SoftmaxRows

/-! ## The two batched products -/

/-- The product contracting the feature axis of both operands, batch axis 0, at (b, i, j): the sum over the feature
    coordinate. -/
theorem scoreDot_apply {φ₁ φ₂ : FTy} (L : FVec Ideal S512x200x256 φ₁) (R : FVec Ideal S512x200x256 φ₂)
    (b : Fin 512) (i j : Fin 200) :
    Host.dotGeneral (F := Ideal) dot_S512x200x256_S512x200x256_S512x200x200_2_2_1_1_0_0 none L R (ix3 b i j)
      = ∑ d : Fin 256, L (ix3 b i d) * R (ix3 b j d) := by
  show FloatOps.dotGeneral _ none _ L R (ix3 b i j) = _
  rw [Ideal.dotGeneral_apply,
    ← Equiv.sum_comp (contrEquiv1 dot_S512x200x256_S512x200x256_S512x200x200_2_2_1_1_0_0 256 rfl rfl).symm]
  refine Finset.sum_congr rfl fun c _ => ?_
  have c3 := contrEquiv1_symm_val dot_S512x200x256_S512x200x256_S512x200x200_2_2_1_1_0_0 256 rfl rfl c
  have l3 : dot_S512x200x256_S512x200x256_S512x200x200_2_2_1_1_0_0.lhsIdx (ix3 b i j)
      ((contrEquiv1 _ 256 rfl rfl).symm c) = ix3 b i c := by
    funext ax; apply Fin.ext
    match ax with
    | ⟨0, _⟩ => simp [DotDims.lhsIdx, dot_S512x200x256_S512x200x256_S512x200x200_2_2_1_1_0_0]; rfl
    | ⟨1, _⟩ => simp [DotDims.lhsIdx, dot_S512x200x256_S512x200x256_S512x200x200_2_2_1_1_0_0]; rfl
    | ⟨2, _⟩ => simp [DotDims.lhsIdx, dot_S512x200x256_S512x200x256_S512x200x200_2_2_1_1_0_0]; exact c3
  have r3 : dot_S512x200x256_S512x200x256_S512x200x200_2_2_1_1_0_0.rhsIdx (ix3 b i j)
      ((contrEquiv1 _ 256 rfl rfl).symm c) = ix3 b j c := by
    funext ax; apply Fin.ext
    match ax with
    | ⟨0, _⟩ => simp [DotDims.rhsIdx, dot_S512x200x256_S512x200x256_S512x200x200_2_2_1_1_0_0]; rfl
    | ⟨1, _⟩ => simp [DotDims.rhsIdx, dot_S512x200x256_S512x200x256_S512x200x200_2_2_1_1_0_0]; rfl
    | ⟨2, _⟩ => simp [DotDims.rhsIdx, dot_S512x200x256_S512x200x256_S512x200x200_2_2_1_1_0_0]; exact c3
  rw [l3, r3]

/-- The product contracting the left operand's last axis against the right operand's node axis, batch axis 0, at
    (b, i, d): the sum over the node coordinate. -/
theorem mixDot_apply {φ₁ φ₂ : FTy} (L : FVec Ideal S512x200x200 φ₁) (R : FVec Ideal S512x200x256 φ₂)
    (b : Fin 512) (i : Fin 200) (d : Fin 256) :
    Host.dotGeneral (F := Ideal) dot_S512x200x200_S512x200x256_S512x200x256_2_1_1_2_0_0 none L R (ix3 b i d)
      = ∑ j : Fin 200, L (ix3 b i j) * R (ix3 b j d) := by
  show FloatOps.dotGeneral _ none _ L R (ix3 b i d) = _
  rw [Ideal.dotGeneral_apply,
    ← Equiv.sum_comp (contrEquiv1 dot_S512x200x200_S512x200x256_S512x200x256_2_1_1_2_0_0 200 rfl rfl).symm]
  refine Finset.sum_congr rfl fun c _ => ?_
  have c3 := contrEquiv1_symm_val dot_S512x200x200_S512x200x256_S512x200x256_2_1_1_2_0_0 200 rfl rfl c
  have l3 : dot_S512x200x200_S512x200x256_S512x200x256_2_1_1_2_0_0.lhsIdx (ix3 b i d)
      ((contrEquiv1 _ 200 rfl rfl).symm c) = ix3 b i c := by
    funext ax; apply Fin.ext
    match ax with
    | ⟨0, _⟩ => simp [DotDims.lhsIdx, dot_S512x200x200_S512x200x256_S512x200x256_2_1_1_2_0_0]; rfl
    | ⟨1, _⟩ => simp [DotDims.lhsIdx, dot_S512x200x200_S512x200x256_S512x200x256_2_1_1_2_0_0]; rfl
    | ⟨2, _⟩ => simp [DotDims.lhsIdx, dot_S512x200x200_S512x200x256_S512x200x256_2_1_1_2_0_0]; exact c3
  have r3 : dot_S512x200x200_S512x200x256_S512x200x256_2_1_1_2_0_0.rhsIdx (ix3 b i d)
      ((contrEquiv1 _ 200 rfl rfl).symm c) = ix3 b c d := by
    funext ax; apply Fin.ext
    match ax with
    | ⟨0, _⟩ => simp [DotDims.rhsIdx, dot_S512x200x200_S512x200x256_S512x200x256_2_1_1_2_0_0]; rfl
    | ⟨1, _⟩ => simp [DotDims.rhsIdx, dot_S512x200x200_S512x200x256_S512x200x256_2_1_1_2_0_0]; exact c3
    | ⟨2, _⟩ => simp [DotDims.rhsIdx, dot_S512x200x200_S512x200x256_S512x200x256_2_1_1_2_0_0]; rfl
  rw [l3, r3]

/-! ## The stages -/

/-- h scaled by the weight vector, at (b, i, d). -/
theorem scaled_apply (h : FVec Ideal S512x200x256 .f32) (a : FVec Ideal S256 .f32) (b : Fin 512) (i : Fin 200) (d : Fin 256) :
    RefTerm.scaled h a (ix3 b i d) = h (ix3 b i d) * a (ix1 d) := by
  unfold RefTerm.scaled
  refine congrArg (h (ix3 b i d) * ·) ?_
  refine (broadcastInDim_apply _ _ _ (ix3 b i d) (ix3 (0 : Fin 1) (0 : Fin 1) d) (fun ax => by
    match ax with
    | ⟨0, _⟩ => rfl
    | ⟨1, _⟩ => rfl
    | ⟨2, _⟩ => rfl)).trans ?_
  exact broadcastInDim_apply _ _ _ (ix3 (0 : Fin 1) (0 : Fin 1) d) (ix1 d) (fun ax => by
    match ax with
    | ⟨0, _⟩ => rfl)

/-- The pair scores at (b, i, j): the specification's score. -/
theorem scores_apply (h : FVec Ideal S512x200x256 .f32) (a : FVec Ideal S256 .f32) (b : Fin 512) (i j : Fin 200) :
    RefTerm.scores h a (ix3 b i j) = Cert.Gat.score (B := 512) h (fun k => a (ix1 k)) b i j := by
  unfold RefTerm.scores Cert.Gat.score
  refine (scoreDot_apply _ _ b i j).trans ?_
  exact Finset.sum_congr rfl fun d _ => congrArg (· * h (ix3 b j d)) (scaled_apply h a b i d)

/-- A scalar constant spread over the score array reads the constant. -/
theorem splat_apply (bits : BitVec 32) (idx : S512x200x200.Idx) : RefTerm.splat bits idx = Ideal.ofBits .f32 bits := by
  unfold RefTerm.splat
  exact broadcastInDim_scalar_apply _ _ idx

/-- The leaky unit is entry by entry. -/
theorem leakyV_apply (s : FVec Ideal S512x200x200 .f32) (idx : S512x200x200.Idx) :
    RefTerm.leakyV s idx = Cert.Gat.leaky (s idx) := by
  unfold RefTerm.leakyV Cert.Gat.leaky
  show Scalar.select (Ideal.cmp .oge (s idx) (RefTerm.splat 0x00000000#32 idx)) (s idx)
      (RefTerm.splat 0x3E4CCCCD#32 idx * s idx) = _
  rw [splat_apply, splat_apply]

/-- The label's test is entry by entry. -/
theorem labelIs_apply (l : IVec S512x200x200 32) (k : BitVec 32) (idx : S512x200x200.Idx) :
    RefTerm.labelIs l k idx = IntOp.cmpi .eq (l idx) k := by
  unfold RefTerm.labelIs
  exact congrArg (IntOp.cmpi .eq (l idx)) (broadcastInDim_scalar_apply _ _ idx)

/-- The kept value at (b, i, j): the specification's. -/
theorem logits_apply (h : FVec Ideal S512x200x256 .f32) (l : IVec S512x200x200 32) (a0 a1 a2 a3 : FVec Ideal S256 .f32)
    (b : Fin 512) (i j : Fin 200) :
    RefTerm.logits h l a0 a1 a2 a3 (ix3 b i j)
      = Cert.Gat.logit (B := 512) h l (fun k => a0 (ix1 k)) (fun k => a1 (ix1 k)) (fun k => a2 (ix1 k)) (fun k => a3 (ix1 k)) b i j := by
  unfold RefTerm.logits Cert.Gat.logit Cert.Gat.pick
  show Scalar.select (RefTerm.labelIs l 4#32 (ix3 b i j)) (RefTerm.leakyV (RefTerm.scores h a3) (ix3 b i j))
      (Scalar.select (RefTerm.labelIs l 3#32 (ix3 b i j)) (RefTerm.leakyV (RefTerm.scores h a2) (ix3 b i j))
        (Scalar.select (RefTerm.labelIs l 2#32 (ix3 b i j)) (RefTerm.leakyV (RefTerm.scores h a1) (ix3 b i j))
          (Scalar.select (RefTerm.labelIs l 1#32 (ix3 b i j)) (RefTerm.leakyV (RefTerm.scores h a0) (ix3 b i j))
            (RefTerm.splat 0xD9FFCB9E#32 (ix3 b i j))))) = _
  rw [labelIs_apply, labelIs_apply, labelIs_apply, labelIs_apply, leakyV_apply, leakyV_apply, leakyV_apply, leakyV_apply,
    scores_apply, scores_apply, scores_apply, scores_apply, splat_apply]

/-- A [512, 200] array kept as a column and spread along the last axis reads its (b, i) entry. -/
theorem spread_apply (v : FVec Ideal S512x200 .f32) (b : Fin 512) (i j : Fin 200) :
    RefTerm.spread v (ix3 b i j) = v (ix2 b i) := by
  unfold RefTerm.spread
  refine (broadcastInDim_apply _ _ _ (ix3 b i j) (ix3 b i (0 : Fin 1)) (fun ax => by
    match ax with
    | ⟨0, _⟩ => rfl
    | ⟨1, _⟩ => rfl
    | ⟨2, _⟩ => rfl)).trans ?_
  exact broadcastInDim_apply _ _ _ (ix3 b i (0 : Fin 1)) (ix2 b i) (fun ax => by
    match ax with
    | ⟨0, _⟩ => rfl
    | ⟨1, _⟩ => rfl)

/-- The row maximum at (b, i): the fold of max from −∞ over the row. -/
theorem rowMax_apply (x : FVec Ideal S512x200x200 .f32) (b : Fin 512) (i : Fin 200) :
    RefTerm.rowMax x (ix2 b i)
      = (Finset.univ : Finset (Fin 200)).fold max (Ideal.ofBits .f32 0xFF800000#32) (fun c => x (ix3 b i c)) := by
  unfold RefTerm.rowMax
  refine (maximumf_apply _ _ (ix2 b i)).trans ?_
  refine (congrArg₂ max (broadcastInDim_scalar_apply _ _ (ix2 b i))
    (hostLaneMax3_apply (n0 := 512) (n1 := 200) (n2 := 200) (φ := .f32) x (constant (F := Ideal) S_ .f32 0xFF800000#32)
      Facts₀.reducesTo_S512x200x200_S512x200_d2 (by decide) Facts₀.h_S_ b i)).trans ?_
  exact max_fold_max_self _ _ _

/-- The exponential of an entry less its row's maximum. -/
theorem expo_apply (x : FVec Ideal S512x200x200 .f32) (b : Fin 512) (i c : Fin 200) :
    RefTerm.expo x (ix3 b i c)
      = Ideal.exp (x (ix3 b i c) - (Finset.univ : Finset (Fin 200)).fold max (Ideal.ofBits .f32 0xFF800000#32) (fun c => x (ix3 b i c))) := by
  unfold RefTerm.expo
  show Ideal.exp (x (ix3 b i c) - RefTerm.spread (RefTerm.rowMax x) (ix3 b i c)) = _
  rw [spread_apply, rowMax_apply]

/-- The softmax over the last axis at (b, i, j): the softmax of row (b, i), its maximum folded from −∞. -/
theorem softmaxV_apply (x : FVec Ideal S512x200x200 .f32) (b : Fin 512) (i j : Fin 200) :
    RefTerm.softmaxV x (ix3 b i j) = softmaxAt (fun c => x (ix3 b i c)) (Ideal.ofBits .f32 0xFF800000#32) j := by
  unfold RefTerm.softmaxV softmaxAt
  refine (hostDivf_apply _ _ (ix3 b i j)).trans ?_
  refine congrArg₂ Ideal.div (expo_apply x b i j) ?_
  refine (spread_apply _ b i j).trans ?_
  refine (hostReduceAdd_apply (RefTerm.expo x) _ Facts₀.reducesTo_S512x200x200_S512x200_d2 Facts₀.h_S_ (ix2 b i)).trans ?_
  refine (Ideal.hostReduceAdd_single Facts₀.reducesTo_S512x200x200_S512x200_d2
    (by decide : S512x200x200.Reduces [2] S512x200) (RefTerm.expo x) _ (ix2 b i)).trans ?_
  show Ideal.ofBits .f32 0x00000000#32 + _ = _
  rw [Ideal.ofBits_zero_f32, zero_add]
  exact Finset.sum_congr rfl fun c _ => (congrArg (RefTerm.expo x) (funext fun ax => Fin.ext (by
    match ax with | ⟨0, _⟩ => rfl | ⟨1, _⟩ => rfl | ⟨2, _⟩ => rfl))).trans (expo_apply x b i c)

/-! ## The result -/

/-- The reference's result at (b, i, d) is the specification's result. -/
theorem result_apply (h : FVec Ideal S512x200x256 .f32) (l : IVec S512x200x200 32) (a0 a1 a2 a3 : FVec Ideal S256 .f32)
    (b : Fin 512) (i : Fin 200) (d : Fin 256) :
    RefTerm.result h l a0 a1 a2 a3 (ix3 b i d)
      = Cert.Gat.outAt (B := 512) h l (fun k => a0 (ix1 k)) (fun k => a1 (ix1 k)) (fun k => a2 (ix1 k)) (fun k => a3 (ix1 k)) b i d := by
  unfold RefTerm.result Cert.Gat.outAt
  refine (mixDot_apply _ _ b i d).trans ?_
  refine Finset.sum_congr rfl fun j _ => congrArg (· * h (ix3 b j d)) ?_
  refine (softmaxV_apply _ b i j).trans ?_
  exact congrArg (fun row => softmaxAt row (Ideal.ofBits .f32 0xFF800000#32) j)
    (funext fun c => logits_apply h l a0 a1 a2 a3 b i c)

end Cert.ReferenceIdeal.RefTermValue

end
-- ==== Proof.lean ====
/-
  The certificate: a batched attention layer over labelled edges, as a kernel tiled over blocks of 8 batch elements and as
  a plain array program, compute the same result on the extended reals.

  For every batch element b and node i both programs form, for each of four weight vectors a_k, the scores
  ∑_d (h[b,i,d] · a_k[d]) · h[b,j,d] against every node j, pass them through a leaky unit, keep at (i, j) the score the
  integer label adj[b,i,j] selects (a large negative fill when it selects none), turn row (b, i) into weights by a softmax
  over j, and return ∑_j weight[j] · h[b,j,d]. The kernel rounds its matrix operands to a shorter float format first, which
  changes nothing at the ideal values; its products into a zero accumulator and the array program's contractions are the
  same sums; the two softmaxes are spelt with the same operations. So the two results are one function of the arguments
  (Cert.Gat.outAt), entry by entry, with no condition on the inputs: the kernel's result array is that function because its
  64 blocks tile the array and each block holds the function at its own batch elements; the array program's result is that
  function by reading its operations one at a time at an index.

  Each program also runs to the end without fault and leaves its arguments as they were: the kernel programs by the run of
  their one region over its 64 points, the array program by the run of its operations in order. The idealized kernel is the
  kernel's own text read at the ideal values (no operation was rewritten), so there is nothing to preserve.
-/
import proofs.«158989_j84241488544065_1_alg».proof.Defs
import proofs.«158989_j84241488544065_1_alg».proof.Proof.Gen.Kernel
import proofs.«158989_j84241488544065_1_alg».proof.Proof.Gen.KernelIdeal
import proofs.«158989_j84241488544065_1_alg».proof.Proof.Gen.ReferenceIdeal
import proofs.«158989_j84241488544065_1_alg».proof.Proof.Gen.Pre_finite_inputs
import proofs.«158989_j84241488544065_1_alg».proof.Proof.KernelRun
import proofs.«158989_j84241488544065_1_alg».proof.Proof.KernelIdealValue
import proofs.«158989_j84241488544065_1_alg».proof.Proof.RefRun
import proofs.«158989_j84241488544065_1_alg».proof.Proof.RefTermValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and keeps its arguments. -/
theorem frame_kernel : Cert.frame_Kernel := fun m ρ _ => Cert.Kernel.Hand.frame m ρ

/-- The kernel read at the ideal values runs and keeps its arguments. -/
theorem frame_kernelIdeal : Cert.frame_KernelIdeal := fun m ρ _ => Cert.KernelIdeal.Hand.frame m ρ

/-- The array program runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The array program's result and the kernel's result array are one function of the arguments: at every (b, i, d) both are
    the specification's value. -/
theorem result_eq (h : FVec Ideal Cert.ReferenceIdeal.S512x200x256 .f32) (l : IVec Cert.ReferenceIdeal.S512x200x200 32)
    (a0 a1 a2 a3 : FVec Ideal Cert.ReferenceIdeal.S256 .f32) :
    Cert.ReferenceIdeal.RefTerm.result h l a0 a1 a2 a3 = Cert.KernelIdeal.HandValue.G h l a0 a1 a2 a3 := by
  funext x
  obtain ⟨b, i, d, rfl⟩ : ∃ (b : Fin 512) (i : Fin 200) (d : Fin 256), x = ix3 b i d := ⟨x 0, x 1, x 2, eq_ix3 x⟩
  exact Cert.ReferenceIdeal.RefTermValue.result_apply h l a0 a1 a2 a3 b i d

/-- From memories that agree on the arguments both idealized programs run, keep their arguments, and end with the same
    result array. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2]
  exact result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
